-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v99) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S32 .f32) (main_arg6 : FVec F S32x128 .f32) (main_arg7 : FVec F S128 .f32) (main_v13 : IVec S_ 1) (main_v16 : IVec S64x32 1) : IVec S_ 1 :=
  let main_c_5 : IVec S_ 1 := constantI S_ 1 1#1
  let main_v17 : IVec S_ 1 := (fun x v => Host.reduce IntOp.andi x v reducesTo_S64x32_S_d0_1 h_S_) main_v16 main_c_5
  let main_v18 : IVec S_ 1 := andi main_v13 main_v17
  let main_v19 : FVec F S32 .f32 := Host.absf main_arg5
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x128 .f32 := Host.absf main_arg6
  let main_cst_8 : FVec F S_ .f32 := constant S_ .f32 0x7F800000#32
  let main_v25 : FVec F S32x128 .f32 := broadcastInDim S32x128 ![] bcast_S_S32x128 main_cst_8
  let main_v26 : IVec S32x128 1 := cmpf .olt main_v24 main_v25
  let main_c_9 : IVec S_ 1 := constantI S_ 1 1#1
  let main_v27 : IVec S_ 1 := (fun x v => Host.reduce IntOp.andi x v reducesTo_S32x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  main_v33

def fn {F : FTy → Type} [FloatOps F] (main_arg0 : FVec F S50000x128 .f32) (main_arg1 : IVec S2x800000 32) (main_arg2 : FVec F S128x64 .f32) (main_arg3 : FVec F S64 .f32) (main_arg4 : FVec F S64x32 .f32) (main_arg5 : FVec F S32 .f32) (main_arg6 : FVec F S32x128 .f32) (main_arg7 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x32 .f32 := Host.absf main_arg4
  let main_cst_4 : FVec F S_ .f32 := constant S_ .f32 0x7F800000#32
  let main_v15 : FVec F S64x32 .f32 := broadcastInDim S64x32 ![] bcast_S_S64x32 main_cst_4
  let main_v16 : IVec S64x32 1 := cmpf .olt main_v14 main_v15
  fn_part1 (F := F) main_arg5 main_arg6 main_arg7 main_v13 main_v16
-- ==== Kernel.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S5000x128 : Shape := ⟨2, ![5000, 128]⟩
abbrev S5000x1 : Shape := ⟨2, ![5000, 1]⟩
abbrev S5000x64 : Shape := ⟨2, ![5000, 64]⟩
abbrev S850000x64 : Shape := ⟨2, ![850000, 64]⟩
abbrev S1x64 : Shape := ⟨2, ![1, 64]⟩
abbrev S50000x32 : Shape := ⟨2, ![50000, 32]⟩
abbrev S5000x32 : Shape := ⟨2, ![5000, 32]⟩
abbrev S850000x32 : Shape := ⟨2, ![850000, 32]⟩
abbrev S1x32 : Shape := ⟨2, ![1, 32]⟩
abbrev S1x128 : Shape := ⟨2, ![1, 128]⟩

abbrev nBuf : Space → Nat
  | .hbm => 62
  | .vmem => 24
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x128, .f32⟩
  | .hbm, ⟨7, _⟩ => ⟨S128, .f32⟩
  | .hbm, ⟨8, _⟩ => ⟨S1x800000, .i32⟩
  | .hbm, ⟨9, _⟩ => ⟨S800000, .i32⟩
  | .hbm, ⟨10, _⟩ => ⟨S1x800000, .i32⟩
  | .hbm, ⟨11, _⟩ => ⟨S800000, .i32⟩
  | .hbm, ⟨12, _⟩ => ⟨S50000, .i32⟩
  | .hbm, ⟨13, _⟩ => ⟨S850000, .i32⟩
  | .hbm, ⟨14, _⟩ => ⟨S850000, .i32⟩
  | .hbm, ⟨15, _⟩ => ⟨S_, .f32⟩
  | .hbm, ⟨16, _⟩ => ⟨S850000, .f32⟩
  | .hbm, ⟨17, _⟩ => ⟨S_, .f32⟩
  | .hbm, ⟨18, _⟩ => ⟨S50000, .f32⟩
  | .hbm, ⟨19, _⟩ => ⟨S850000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S50000x64, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000x64, .f32⟩
  | .hbm, ⟨40, _⟩ => ⟨S_, .f32⟩
  | .hbm, ⟨41, _⟩ => ⟨S50000x64, .f32⟩
  | .hbm, ⟨42, _⟩ => ⟨S850000x1, .i32⟩
  | .hbm, ⟨43, _⟩ => ⟨S50000x64, .f32⟩
  | .hbm, ⟨44, _⟩ => ⟨S1x64, .f32⟩
  | .hbm, ⟨45, _⟩ => ⟨S50000x32, .f32⟩
  | .hbm, ⟨46, _⟩ => ⟨S_, .i32⟩
  | .hbm, ⟨47, _⟩ => ⟨S850000, .i32⟩
  | .hbm, ⟨48, _⟩ => ⟨S850000, .i1⟩
  | .hbm, ⟨49, _⟩ => ⟨S_, .i32⟩
  | .hbm, ⟨50, _⟩ => ⟨S850000, .i32⟩
  | .hbm, ⟨51, _⟩ => ⟨S850000, .i32⟩
  | .hbm, ⟨52, _⟩ => ⟨S850000, .i32⟩
  | .hbm, ⟨53, _⟩ => ⟨S850000x1, .i32⟩
  | .hbm, ⟨54, _⟩ => ⟨S850000x32, .f32⟩
  | .hbm, ⟨55, _⟩ => ⟨S_, .f32⟩
  | .hbm, ⟨56, _⟩ => ⟨S50000x32, .f32⟩
  | .hbm, ⟨57, _⟩ => ⟨S850000x1, .i32⟩
  | .hbm, ⟨58, _⟩ => ⟨S50000x32, .f32⟩
  | .hbm, ⟨59, _⟩ => ⟨S1x32, .f32⟩
  | .hbm, ⟨60, _⟩ => ⟨S1x128, .f32⟩
  | .hbm, ⟨61, _⟩ => ⟨S50000x128, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x1, .f32⟩
  | .local _ .vmem, ⟨4, _⟩ => ⟨S5000x1, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x1, .f32⟩
  | .local _ .vmem, ⟨10, _⟩ => ⟨S5000x1, .f32⟩
  | .local _ .vmem, ⟨11, _⟩ => ⟨S1x64, .f32⟩
  | .local _ .vmem, ⟨12, _⟩ => ⟨S64x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S5000x32, .f32⟩
  | .local _ .vmem, ⟨17, _⟩ => ⟨S5000x1, .f32⟩
  | .local _ .vmem, ⟨18, _⟩ => ⟨S5000x1, .f32⟩
  | .local _ .vmem, ⟨19, _⟩ => ⟨S1x32, .f32⟩
  | .local _ .vmem, ⟨20, _⟩ => ⟨S32x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_5 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_7 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg5_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem5_1 : DmaSem sig := 23

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S32x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x32_S64x32_0_0 : ∀ a, (![0, 0] : Fin 2 → Nat) a + S64x32.size a ≤ S64x32.size a
  h_S64x32 : 0 < S64x32.numel
  broadcasts_S5000x1_S5000x32 : S5000x1.Broadcasts S5000x32
  inb_S5000x32_S5000x32_0_0 : ∀ a, (![0, 0] : Fin 2 → Nat) a + S5000x32.size a ≤ S5000x32.size a
  h_S5000x32 : 0 < S5000x32.numel
  bcast_S_S50000x32 : S_.BroadcastsInDim S50000x32 (![] : Fin 0 → Fin S50000x32.rank)
  shapeCasts_S32_S1x32 : S32.ShapeCasts S1x32
  shapeCasts_S128_S1x128 : S128.ShapeCasts S1x128
  shapeCasts_S5000x32_S5000x32 : S5000x32.ShapeCasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x128_S32x128_0_0 : ∀ a, (![0, 0] : Fin 2 → Nat) a + S32x128.size a ≤ S32x128.size a
  h_S32x128 : 0 < S32x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S50000_S850000x1_S850000_n_0_0_1_wf : ScatterDims.WF S50000 S850000x1 S850000 [] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S5000x64_S64x32_S5000x32_1_0_0_1_n_n_wf : DotDims.WF S5000x64 S64x32 S5000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S5000x32_S32x128_S5000x128_1_0_0_1_n_n_wf : DotDims.WF S5000x32 S32x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x32.size a ≤ S64x32.size a
  hwx1_3 : ∀ i : grid1.Coords, EltTy.bits .f32 = 32 ∨ (Rect.block (s := S64x32) S64x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S50000x32.size a
  hwx1_4 : ∀ i : grid1.Coords, EltTy.bits .f32 = 32 ∨ (Rect.block (s := S50000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S50000x32.size a
  hwx2_0 : ∀ i : grid2.Coords, EltTy.bits .f32 = 32 ∨ (Rect.block (s := S50000x32) S5000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S32x128.size a ≤ S32x128.size a
  hwx2_3 : ∀ i : grid2.Coords, EltTy.bits .f32 = 32 ∨ (Rect.block (s := S32x128) S32x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S50000x128.size a
  hwx2_5 : ∀ i : grid2.Coords, EltTy.bits .f32 = 32 ∨ (Rect.block (s := S50000x128) S5000x128.size (cc2_transform_5 i) (hinb2_5 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S5000x32_S32x128_S5000x128_1_0_0_1_n_n : DotDims S5000x32 S32x128 S5000x128 where
  lhsContracting := [1]
  rhsContracting := [0]
  lhsNonContracting := [0]
  rhsNonContracting := [1]
  lhsBatch := []
  rhsBatch := []
  wf := dot_S5000x32_S32x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S64x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v28) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v38) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg6) S32x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v40) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v41) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x64 : Shape := ⟨2, ![128, 64]⟩
abbrev S64 : Shape := ⟨1, ![64]⟩
abbrev S64x32 : Shape := ⟨2, ![64, 32]⟩
abbrev S32 : Shape := ⟨1, ![32]⟩
abbrev S32x128 : Shape := ⟨2, ![32, 128]⟩
abbrev S128 : Shape := ⟨1, ![128]⟩
abbrev S50000x64 : Shape := ⟨2, ![50000, 64]⟩
abbrev S1x800000 : Shape := ⟨2, ![1, 800000]⟩
abbrev S800000 : Shape := ⟨1, ![800000]⟩
abbrev S50000 : Shape := ⟨1, ![50000]⟩
abbrev S850000 : Shape := ⟨1, ![850000]⟩
abbrev S_ : Shape := ⟨0, ![]⟩
abbrev S850000x1 : Shape := ⟨2, ![850000, 1]⟩
abbrev S850000x64 : Shape := ⟨2, ![850000, 64]⟩
abbrev S1x64 : Shape := ⟨2, ![1, 64]⟩
abbrev S50000x32 : Shape := ⟨2, ![50000, 32]⟩
abbrev S850000x32 : Shape := ⟨2, ![850000, 32]⟩
abbrev S1x32 : Shape := ⟨2, ![1, 32]⟩
abbrev S1x128 : Shape := ⟨2, ![1, 128]⟩

abbrev nBuf : Space → Nat
  | .hbm => 138
  | .vmem => 0
  | .smem => 0
  | _ => 0

abbrev hbmTy0_0 (i : Nat) : BufTy := match i % 128 with
  | 0 => ⟨S50000x128, .f32⟩
  | 1 => ⟨S2x800000, .i32⟩
  | 2 => ⟨S128x64, .f32⟩
  | 3 => ⟨S64, .f32⟩
  | 4 => ⟨S64x32, .f32⟩
  | 5 => ⟨S32, .f32⟩
  | 6 => ⟨S32x128, .f32⟩
  | 7 => ⟨S128, .f32⟩
  | 8 => ⟨S50000x64, .f32⟩
  | 9 => ⟨S1x800000, .i32⟩
  | 10 => ⟨S800000, .i32⟩
  | 11 => ⟨S1x800000, .i32⟩
  | 12 => ⟨S800000, .i32⟩
  | 13 => ⟨S50000, .i32⟩
  | 14 => ⟨S850000, .i32⟩
  | 15 => ⟨S850000, .i32⟩
  | 16 => ⟨S_, .f32⟩
  | 17 => ⟨S850000, .f32⟩
  | 18 => ⟨S_, .f32⟩
  | 19 => ⟨S50000, .f32⟩
  | 20 => ⟨S850000x1, .i32⟩
  | 21 => ⟨S50000, .f32⟩
  | 22 => ⟨S_, .f32⟩
  | 23 => ⟨S50000, .f32⟩
  | 24 => ⟨S50000, .i1⟩
  | 25 => ⟨S50000, .f32⟩
  | 26 => ⟨S_, .f32⟩
  | 27 => ⟨S_, .f32⟩
  | 28 => ⟨S50000, .f32⟩
  | 29 => ⟨S50000, .f32⟩
  | 30 => ⟨S_, .i32⟩
  | 31 => ⟨S850000, .i32⟩
  | 32 => ⟨S850000, .i1⟩
  | 33 => ⟨S_, .i32⟩
  | 34 => ⟨S850000, .i32⟩
  | 35 => ⟨S850000, .i32⟩
  | 36 => ⟨S850000, .i32⟩
  | 37 => ⟨S850000x1, .i32⟩
  | 38 => ⟨S850000, .f32⟩
  | 39 => ⟨S_, .i32⟩
  | 40 => ⟨S850000, .i32⟩
  | 41 => ⟨S850000, .i1⟩
  | 42 => ⟨S_, .i32⟩
  | 43 => ⟨S850000, .i32⟩
  | 44 => ⟨S850000, .i32⟩
  | 45 => ⟨S850000, .i32⟩
  | 46 => ⟨S850000x1, .i32⟩
  | 47 => ⟨S850000, .f32⟩
  | 48 => ⟨S850000, .f32⟩
  | 49 => ⟨S_, .i32⟩
  | 50 => ⟨S850000, .i32⟩
  | 51 => ⟨S850000, .i1⟩
  | 52 => ⟨S_, .i32⟩
  | 53 => ⟨S850000, .i32⟩
  | 54 => ⟨S850000, .i32⟩
  | 55 => ⟨S850000, .i32⟩
  | 56 => ⟨S850000x1, .i32⟩
  | 57 => ⟨S850000x64, .f32⟩
  | 58 => ⟨S850000x1, .f32⟩
  | 59 => ⟨S850000x64, .f32⟩
  | 60 => ⟨S850000x64, .f32⟩
  | 61 => ⟨S_, .f32⟩
  | 62 => ⟨S50000x64, .f32⟩
  | 63 => ⟨S850000x1, .i32⟩
  | 64 => ⟨S50000x64, .f32⟩
  | 65 => ⟨S1x64, .f32⟩
  | 66 => ⟨S50000x64, .f32⟩
  | 67 => ⟨S50000x64, .f32⟩
  | 68 => ⟨S_, .f32⟩
  | 69 => ⟨S50000x64, .f32⟩
  | 70 => ⟨S50000x64, .f32⟩
  | 71 => ⟨S50000x32, .f32⟩
  | 72 => ⟨S1x800000, .i32⟩
  | 73 => ⟨S800000, .i32⟩
  | 74 => ⟨S1x800000, .i32⟩
  | 75 => ⟨S800000, .i32⟩
  | 76 => ⟨S50000, .i32⟩
  | 77 => ⟨S850000, .i32⟩
  | 78 => ⟨S850000, .i32⟩
  | 79 => ⟨S_, .f32⟩
  | 80 => ⟨S850000, .f32⟩
  | 81 => ⟨S_, .f32⟩
  | 82 => ⟨S50000, .f32⟩
  | 83 => ⟨S850000x1, .i32⟩
  | 84 => ⟨S50000, .f32⟩
  | 85 => ⟨S_, .f32⟩
  | 86 => ⟨S50000, .f32⟩
  | 87 => ⟨S50000, .i1⟩
  | 88 => ⟨S50000, .f32⟩
  | 89 => ⟨S_, .f32⟩
  | 90 => ⟨S_, .f32⟩
  | 91 => ⟨S50000, .f32⟩
  | 92 => ⟨S50000, .f32⟩
  | 93 => ⟨S_, .i32⟩
  | 94 => ⟨S850000, .i32⟩
  | 95 => ⟨S850000, .i1⟩
  | 96 => ⟨S_, .i32⟩
  | 97 => ⟨S850000, .i32⟩
  | 98 => ⟨S850000, .i32⟩
  | 99 => ⟨S850000, .i32⟩
  | 100 => ⟨S850000x1, .i32⟩
  | 101 => ⟨S850000, .f32⟩
  | 102 => ⟨S_, .i32⟩
  | 103 => ⟨S850000, .i32⟩
  | 104 => ⟨S850000, .i1⟩
  | 105 => ⟨S_, .i32⟩
  | 106 => ⟨S850000, .i32⟩
  | 107 => ⟨S850000, .i32⟩
  | 108 => ⟨S850000, .i32⟩
  | 109 => ⟨S850000x1, .i32⟩
  | 110 => ⟨S850000, .f32⟩
  | 111 => ⟨S850000, .f32⟩
  | 112 => ⟨S_, .i32⟩
  | 113 => ⟨S850000, .i32⟩
  | 114 => ⟨S850000, .i1⟩
  | 115 => ⟨S_, .i32⟩
  | 116 => ⟨S850000, .i32⟩
  | 117 => ⟨S850000, .i32⟩
  | 118 => ⟨S850000, .i32⟩
  | 119 => ⟨S850000x1, .i32⟩
  | 120 => ⟨S850000x32, .f32⟩
  | 121 => ⟨S850000x1, .f32⟩
  | 122 => ⟨S850000x32, .f32⟩
  | 123 => ⟨S850000x32, .f32⟩
  | 124 => ⟨S_, .f32⟩
  | 125 => ⟨S50000x32, .f32⟩
  | 126 => ⟨S850000x1, .i32⟩
  | 127 => ⟨S50000x32, .f32⟩
  | _ => ⟨S50000x128, .f32⟩

abbrev hbmTy0_1 (i : Nat) : BufTy := match i % 128 with
  | 0 => ⟨S1x32, .f32⟩
  | 1 => ⟨S50000x32, .f32⟩
  | 2 => ⟨S50000x32, .f32⟩
  | 3 => ⟨S_, .f32⟩
  | 4 => ⟨S50000x32, .f32⟩
  | 5 => ⟨S50000x32, .f32⟩
  | 6 => ⟨S50000x128, .f32⟩
  | 7 => ⟨S1x128, .f32⟩
  | 8 => ⟨S50000x128, .f32⟩
  | 9 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v15 : Ref sig .tc := ⟨.hbm, 29, rfl⟩
abbrev main_c : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_c_4 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_11 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_12 : Ref sig .tc := ⟨.hbm, 89, rfl⟩
abbrev main_call2_v0 : Ref sig .tc := ⟨.hbm, 90, rfl⟩
abbrev main_call2_v1 : Ref sig .tc := ⟨.hbm, 91, rfl⟩
abbrev main_v63 : Ref sig .tc := ⟨.hbm, 92, rfl⟩
abbrev main_c_13 : Ref sig .tc := ⟨.hbm, 93, rfl⟩
abbrev main_v64 : Ref sig .tc := ⟨.hbm, 94, rfl⟩
abbrev main_v65 : Ref sig .tc := ⟨.hbm, 95, rfl⟩
abbrev main_c_14 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_c_15 : Ref sig .tc := ⟨.hbm, 102, rfl⟩
abbrev main_v71 : Ref sig .tc := ⟨.hbm, 103, rfl⟩
abbrev main_v72 : Ref sig .tc := ⟨.hbm, 104, rfl⟩
abbrev main_c_16 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  concatenates_S800000_S50000_S850000_d0 : Shape.Concatenates [S800000, S50000] S850000 0
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S850000x1_S850000x32_0_1 : S850000x1.BroadcastsInDim S850000x32 (![0, 1] : Fin 2 → Fin S850000x32.rank)
  bcast_S_S50000x32 : S_.BroadcastsInDim S50000x32 (![] : Fin 0 → Fin S50000x32.rank)
  bcast_S32_S1x32_1 : S32.BroadcastsInDim S1x32 (![1] : Fin 1 → Fin S1x32.rank)
  bcast_S1x32_S50000x32_0_1 : S1x32.BroadcastsInDim S50000x32 (![0, 1] : Fin 2 → Fin S50000x32.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  dot_S50000x128_S128x64_S50000x64_1_0_0_1_n_n_wf : DotDims.WF S50000x128 S128x64 S50000x64 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S50000x64_S64x32_S50000x32_1_0_0_1_n_n_wf : DotDims.WF S50000x64 S64x32 S50000x32 [1] [0] [0] [1] [] []
  gather_S50000x32_S850000x1_S850000x32_1_0_n_n_0_1_132_wf : GatherDims.WF S50000x32 S850000x1 S850000x32 [1] [0] [] [0] [] 1 ![1, 32]
  scatter_S50000x32_S850000x1_S850000x32_1_0_0_1_wf : ScatterDims.WF S50000x32 S850000x1 S850000x32 [1] [0] [0] 1
  dot_S50000x32_S32x128_S50000x128_1_0_0_1_n_n_wf : DotDims.WF S50000x32 S32x128 S50000x128 [1] [0] [0] [1] [] []

variable [Facts₀]

def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S50000x64_S64x32_S50000x32_1_0_0_1_n_n : DotDims S50000x64 S64x32 S50000x32 where
  lhsContracting := [1]
  rhsContracting := [0]
  lhsNonContracting := [0]
  rhsNonContracting := [1]
  lhsBatch := []
  rhsBatch := []
  wf := dot_S50000x64_S64x32_S50000x32_1_0_0_1_n_n_wf
def gather_S50000x32_S850000x1_S850000x32_1_0_n_n_0_1_132 : GatherDims S50000x32 S850000x1 S850000x32 where
  offsetDims := [1]
  collapsedSliceDims := [0]
  operandBatchingDims := []
  startIndicesBatchingDims := []
  startIndexMap := [0]
  indexVectorDim := 1
  sliceSizes := ![1, 32]
  wf := gather_S50000x32_S850000x1_S850000x32_1_0_n_n_0_1_132_wf
def scatter_S50000x32_S850000x1_S850000x32_1_0_0_1 : ScatterDims S50000x32 S850000x1 S850000x32 where
  updateWindowDims := [1]
  insertedWindowDims := [0]
  scatterDimsToOperandDims := [0]
  indexVectorDim := 1
  wf := scatter_S50000x32_S850000x1_S850000x32_1_0_0_1_wf
def dot_S50000x32_S32x128_S50000x128_1_0_0_1_n_n : DotDims S50000x32 S32x128 S50000x128 where
  lhsContracting := [1]
  rhsContracting := [0]
  lhsNonContracting := [0]
  rhsNonContracting := [1]
  lhsBatch := []
  rhsBatch := []
  wf := dot_S50000x32_S32x128_S50000x128_1_0_0_1_n_n_wf

class Facts : Prop extends Facts₀ where

variable [Facts]
-- ==== Proof.KernelRun.lean ====
/-
  Every weakly fair execution of the program of three dense stages terminates, nothing faulting, with its result array
  at the contents the last stage's write-backs leave (the last boundary of the fold through the program) and the argument
  arrays unchanged: the launch over the program's segments, the last thread state read against the final state.
-/
import proofs.«165941_j32152125177955_2_alg».proof.Proof.Gen.KernelIdeal.Frame
import Idealize.ShloMosaic.PureOps.Ideal

set_option maxRecDepth 16384

noncomputable section

namespace Cert.KernelIdeal.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section AnyInstance

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run at any instance: the result array named beside the unchanged arguments. -/
theorem run_any : θ_run defs (onTc (τ := τ) (main (F := F))) ⟨m, fun _ => 0, ρ⟩ (fun r => ∀ c : Dev nD,
      r.2.mem ((c.tc : Thread nD τ).loc main_v41) = W8 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v41 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c),
       (h c _ (mem_uc main_arg6 (by decide))).trans (W8_main_arg6 m ρ c),
       (h c _ (mem_uc main_arg7 (by decide))).trans (W8_main_arg7 m ρ c)⟩)

end AnyInstance

/-- The run at the extended reals. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v41) = W8 (F := Ideal) m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  run_any (F := Ideal) m ρ

end Cert.KernelIdeal.KernelRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.Spec.lean ====
/-
  A two-layer graph convolution with symmetric normalization and self-loops, written two ways over the extended reals.

  The edge list has E = 800000 + 50000 entries: the given edges followed by one self-loop per node. Each edge k has a
  source word and a destination word. deg j counts (from zero, adding ones) the edges whose destination word names
  node j, and dinv j is 1/sqrt(deg j) where deg j > 0 and 0 elsewhere. A row is gathered at an edge's source word read
  with negative words wrapped by the node count and clamped into the node range; a row is scattered to the node an
  edge's destination word names, and dropped when that word names no node.

  One way (ROUT) multiplies every gathered row of h = x W by dinv(source) * dinv(destination) before the rows are
  summed into their destination nodes, then adds the bias. The other way (KOUT) scales the rows of h by dinv before they
  are gathered, sums the gathered rows into their destination nodes, and scales each node's sum by its dinv afterwards,
  the bias and the rectifier of one layer folded into the dense stage of the next.
-/
import Idealize.ShloMosaic.PureOps.Ideal
import Idealize.ShloMosaic.PureOps.Ideal.Laws
import Idealize.ShloMosaic.Lib.ValueIdx
import Idealize.ShloMosaic.Lib.Pipeline.Value
import proofs.«165941_j32152125177955_2_alg».proof.Proof.LibMatmul
import proofs.«165941_j32152125177955_2_alg».proof.Proof.LibRowScatter
import proofs.«165941_j32152125177955_2_alg».proof.Proof.LibTake

noncomputable section

namespace Cert.Gcn

open Idealize.ShloMosaic Idealize.ShloMosaic.ValueIdx Cert.LibMatmul Cert.LibRowScatter Cert.LibTake

/-- The number of nodes and the number of edges, self-loops included. -/
abbrev NN : Nat := 50000
abbrev EE : Nat := 850000

abbrev sScalar : Shape := ⟨0, ![]⟩
abbrev sNode : Shape := ⟨1, ![50000]⟩
abbrev sNodeCol : Shape := ⟨2, ![50000, 1]⟩
abbrev sEdge : Shape := ⟨1, ![850000]⟩
abbrev sEdgeCol : Shape := ⟨2, ![850000, 1]⟩
abbrev sPairs : Shape := ⟨2, ![2, 800000]⟩
abbrev sPairRow : Shape := ⟨2, ![1, 800000]⟩
abbrev sGiven : Shape := ⟨1, ![800000]⟩

/-! ## The side conditions of the layout steps, at these extents -/

theorem w_slice0 : sPairs.Slices ![0, 0] sPairRow := by decide
theorem w_slice1 : sPairs.Slices ![1, 0] sPairRow := by decide
theorem w_cast_given : sPairRow.ShapeCasts sGiven := by decide
theorem w_cat : Shape.Concatenates [sGiven, sNode] sEdge 0 := by decide
theorem w_b_edge : sScalar.BroadcastsInDim sEdge (![] : Fin 0 → Fin sEdge.rank) := by decide
theorem w_b_node : sScalar.BroadcastsInDim sNode (![] : Fin 0 → Fin sNode.rank) := by decide
theorem w_b_edgecol : sEdge.BroadcastsInDim sEdgeCol (![0] : Fin 1 → Fin sEdgeCol.rank) := by decide
theorem w_cast_nodecol : sNode.ShapeCasts sNodeCol := by decide
theorem w_sc1 : ScatterDims.WF sNode sEdgeCol sEdge [] [0] [0] 1 := by decide
theorem w_g1 : GatherDims.WF sNode sEdgeCol sEdge [] [0] [] [0] [] 1 ![1] := by decide

/-- The side conditions of one layer of width `C`: the row scatter and the row gather, the zero splat, the per-edge
    factor carried across the columns, and the bias as a row carried down the nodes or recast as a row. -/
structure LayerW (C : Nat) : Prop where
  sc : ScatterDims.WF ⟨2, ![NN, C]⟩ sEdgeCol ⟨2, ![EE, C]⟩ [1] [0] [0] 1
  ga : GatherDims.WF ⟨2, ![NN, C]⟩ sEdgeCol ⟨2, ![EE, C]⟩ [1] [0] [] [0] [] 1 ![1, C]
  bz : sScalar.BroadcastsInDim ⟨2, ![NN, C]⟩ (![] : Fin 0 → Fin (⟨2, ![NN, C]⟩ : Shape).rank)
  be : sEdgeCol.BroadcastsInDim ⟨2, ![EE, C]⟩ (![0, 1] : Fin 2 → Fin (⟨2, ![EE, C]⟩ : Shape).rank)
  br : (⟨1, ![C]⟩ : Shape).BroadcastsInDim ⟨2, ![1, C]⟩ (![1] : Fin 1 → Fin (⟨2, ![1, C]⟩ : Shape).rank)
  bd : (⟨2, ![1, C]⟩ : Shape).BroadcastsInDim ⟨2, ![NN, C]⟩ (![0, 1] : Fin 2 → Fin (⟨2, ![NN, C]⟩ : Shape).rank)
  cr : (⟨1, ![C]⟩ : Shape).ShapeCasts ⟨2, ![1, C]⟩

theorem lw64 : LayerW 64 := ⟨by decide, by decide, by decide, by decide, by decide, by decide, by decide⟩
theorem lw32 : LayerW 32 := ⟨by decide, by decide, by decide, by decide, by decide, by decide, by decide⟩
theorem lw128 : LayerW 128 := ⟨by decide, by decide, by decide, by decide, by decide, by decide, by decide⟩

theorem wd1 : DotDims.WF ⟨2, ![NN, 128]⟩ ⟨2, ![128, 64]⟩ ⟨2, ![NN, 64]⟩ [1] [0] [0] [1] [] [] := by decide
theorem wd2 : DotDims.WF ⟨2, ![NN, 64]⟩ ⟨2, ![64, 32]⟩ ⟨2, ![NN, 32]⟩ [1] [0] [0] [1] [] [] := by decide
theorem wd3 : DotDims.WF ⟨2, ![NN, 32]⟩ ⟨2, ![32, 128]⟩ ⟨2, ![NN, 128]⟩ [1] [0] [0] [1] [] [] := by decide

/-- The dimension numbers of a plain matrix product `[A, K] x [K, B]`. -/
abbrev dotP (A K B : Nat) (wf : DotDims.WF ⟨2, ![A, K]⟩ ⟨2, ![K, B]⟩ ⟨2, ![A, B]⟩ [1] [0] [0] [1] [] []) :
    DotDims ⟨2, ![A, K]⟩ ⟨2, ![K, B]⟩ ⟨2, ![A, B]⟩ :=
  { lhsContracting := [1], rhsContracting := [0], lhsNonContracting := [0], rhsNonContracting := [1],
    lhsBatch := [], rhsBatch := [], wf := wf }

/-- The dimension numbers of a scatter-add of single entries into a vector of `N` entries. -/
abbrev vecScatterD : ScatterDims sNode sEdgeCol sEdge :=
  { updateWindowDims := [], insertedWindowDims := [0], scatterDimsToOperandDims := [0], indexVectorDim := 1, wf := w_sc1 }

/-! ## The edge list and the normalization, as the host computes them -/

/-- The words 0.0 and 1.0 as scalars. -/
def zeroS : FVec Ideal sScalar .f32 := constant (F := Ideal) sScalar .f32 0x00000000#32
def oneS : FVec Ideal sScalar .f32 := constant (F := Ideal) sScalar .f32 0x3F800000#32

/-- The source words: row 0 of the given pairs, then the node numbers (the self-loops). -/
def srcW (ei : IVec sPairs 32) : IVec sEdge 32 :=
  concatenate sEdge 0 [⟨sGiven, shapeCast sGiven (extractStridedSlice sPairRow ![0, 0] ei w_slice0) w_cast_given⟩,
    ⟨sNode, iotaInDim sNode 32 0⟩] w_cat

/-- The destination words: row 1 of the given pairs, then the node numbers. -/
def dstW (ei : IVec sPairs 32) : IVec sEdge 32 :=
  concatenate sEdge 0 [⟨sGiven, shapeCast sGiven (extractStridedSlice sPairRow ![1, 0] ei w_slice1) w_cast_given⟩,
    ⟨sNode, iotaInDim sNode 32 0⟩] w_cat

/-- The degree: ones added, from zero, into the node each destination word names. -/
def deg (ei : IVec sPairs 32) : FVec Ideal sNode .f32 :=
  Host.scatterAdd (F := Ideal) vecScatterD (broadcastInDim sNode ![] w_b_node zeroS)
    (broadcastInDim sEdgeCol ![0] w_b_edgecol (dstW ei)) (broadcastInDim sEdge ![] w_b_edge oneS)

/-- The normalization factor of a node: the inverse square root of its degree where that is positive, zero elsewhere. -/
def dinv (ei : IVec sPairs 32) : FVec Ideal sNode .f32 :=
  select (cmpf (F := Ideal) .ogt (deg ei) (broadcastInDim sNode ![] w_b_node zeroS)) (Host.rsqrt (deg ei))
    (broadcastInDim sNode ![] w_b_node (id zeroS))

/-- The same as a column. -/
def dcol (ei : IVec sPairs 32) : FVec Ideal sNodeCol .f32 := shapeCast sNodeCol (dinv ei) w_cast_nodecol

/-- A negative word wrapped by the node count. -/
def wrap (w : IVec sEdge 32) : IVec sEdge 32 :=
  select (cmpi .slt w (broadcastInDim sEdge ![] w_b_edge (constantI sScalar 32 0#32)))
    (addi w (broadcastInDim sEdge ![] w_b_edge (constantI sScalar 32 50000#32))) w

/-- The gathers' start indices (wrapped source words), the scatters' indices (destination words as they are), and the
    wrapped destination words, each as a column. -/
def sidx (ei : IVec sPairs 32) : IVec sEdgeCol 32 := broadcastInDim sEdgeCol ![0] w_b_edgecol (wrap (srcW ei))
def didx (ei : IVec sPairs 32) : IVec sEdgeCol 32 := broadcastInDim sEdgeCol ![0] w_b_edgecol (dstW ei)
def dwr (ei : IVec sPairs 32) : IVec sEdgeCol 32 := broadcastInDim sEdgeCol ![0] w_b_edgecol (wrap (dstW ei))

/-- The per-edge factor dinv(source) * dinv(destination), and the same as a column. -/
def norm (ei : IVec sPairs 32) : FVec Ideal sEdge .f32 :=
  mulf (Host.gather (vecTake NN EE w_g1) (dinv ei) (sidx ei)) (Host.gather (vecTake NN EE w_g1) (dinv ei) (dwr ei))
def normCol (ei : IVec sPairs 32) : FVec Ideal sEdgeCol .f32 := broadcastInDim sEdgeCol ![0] w_b_edgecol (norm ei)

/-! ## The aggregation of one layer, both ways -/

section Layer
variable {C : Nat} (W : LayerW C) (ei : IVec sPairs 32)

/-- Rows gathered at the source words and summed, from zero, into the nodes the destination words name. -/
def aggK (h : FVec Ideal ⟨2, ![NN, C]⟩ .f32) : FVec Ideal ⟨2, ![NN, C]⟩ .f32 :=
  Host.scatterAdd (F := Ideal) (rowScatter NN C EE W.sc) (broadcastInDim ⟨2, ![NN, C]⟩ ![] W.bz zeroS) (didx ei)
    (Host.gather (rowTake NN C EE W.ga) h (sidx ei))

/-- The same with each gathered row multiplied by its edge's factor first. -/
def aggR (h : FVec Ideal ⟨2, ![NN, C]⟩ .f32) : FVec Ideal ⟨2, ![NN, C]⟩ .f32 :=
  Host.scatterAdd (F := Ideal) (rowScatter NN C EE W.sc) (broadcastInDim ⟨2, ![NN, C]⟩ ![] W.bz zeroS) (didx ei)
    (mulf (Host.gather (rowTake NN C EE W.ga) h (sidx ei)) (broadcastInDim ⟨2, ![EE, C]⟩ ![0, 1] W.be (normCol ei)))

/-- A bias vector carried to every node's row. -/
def biasAll (b : FVec Ideal ⟨1, ![C]⟩ .f32) : FVec Ideal ⟨2, ![NN, C]⟩ .f32 :=
  broadcastInDim ⟨2, ![NN, C]⟩ ![0, 1] W.bd (broadcastInDim ⟨2, ![1, C]⟩ ![1] W.br b)

/-- One layer of the second way after its dense stage: aggregate with the factors, add the bias, rectify. -/
def refLayer (h : FVec Ideal ⟨2, ![NN, C]⟩ .f32) (b : FVec Ideal ⟨1, ![C]⟩ .f32) : FVec Ideal ⟨2, ![NN, C]⟩ .f32 :=
  maximumf (addf (aggR W ei h) (biasAll W b)) (broadcastInDim ⟨2, ![NN, C]⟩ ![] W.bz zeroS)

end Layer

/-! ## The dense stages of the first way, each a whole-array function -/

/-- Each row scaled by its node's factor. -/
def scaled {A B : Nat} (h : (⟨2, ![A, B]⟩ : Shape).Idx → EReal) (d : (⟨2, ![A, 1]⟩ : Shape).Idx → EReal) :
    (⟨2, ![A, B]⟩ : Shape).Idx → EReal :=
  fun i => h i * d (ix2 (i 0) (⟨0, Nat.one_pos⟩ : Fin 1))

/-- The activation entering a dense stage: the aggregate scaled by the node's factor, plus the bias row, rectified. -/
def act {A K : Nat} (a : (⟨2, ![A, K]⟩ : Shape).Idx → EReal) (d : (⟨2, ![A, 1]⟩ : Shape).Idx → EReal)
    (b : (⟨2, ![1, K]⟩ : Shape).Idx → EReal) : (⟨2, ![A, K]⟩ : Shape).Idx → EReal :=
  fun j => max (a j * d (ix2 (j 0) (⟨0, Nat.one_pos⟩ : Fin 1)) + b (ix2 (⟨0, Nat.one_pos⟩ : Fin 1) (j 1))) 0

/-- First dense stage: (x W) with each row scaled by its node's factor. -/
def stage0 {A K B : Nat} (x : (⟨2, ![A, K]⟩ : Shape).Idx → EReal) (w : (⟨2, ![K, B]⟩ : Shape).Idx → EReal)
    (d : (⟨2, ![A, 1]⟩ : Shape).Idx → EReal) : (⟨2, ![A, B]⟩ : Shape).Idx → EReal :=
  scaled (MM x w) d

/-- Middle dense stage: the activation times W, each row scaled by its node's factor. -/
def stage1 {A K B : Nat} (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal) : (⟨2, ![A, B]⟩ : Shape).Idx → EReal :=
  scaled (MM (act a d b) w) d

/-- Last dense stage: the activation times W, plus the output bias row. -/
def stage2 {A K B : Nat} (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal)
    (bl : (⟨2, ![1, B]⟩ : Shape).Idx → EReal) : (⟨2, ![A, B]⟩ : Shape).Idx → EReal :=
  fun i => MM (act a d b) w i + bl (ix2 (⟨0, Nat.one_pos⟩ : Fin 1) (i 1))

/-! ## The two ways, whole -/

section Whole
variable (x : FVec Ideal ⟨2, ![NN, 128]⟩ .f32) (ei : IVec sPairs 32)
  (W1 : FVec Ideal ⟨2, ![128, 64]⟩ .f32) (b1 : FVec Ideal ⟨1, ![64]⟩ .f32)
  (W2 : FVec Ideal ⟨2, ![64, 32]⟩ .f32) (b2 : FVec Ideal ⟨1, ![32]⟩ .f32)
  (Wl : FVec Ideal ⟨2, ![32, 128]⟩ .f32) (bl : FVec Ideal ⟨1, ![128]⟩ .f32)

/-- The first way: scale, aggregate, scale again inside the next dense stage. -/
def KOUT : FVec Ideal ⟨2, ![NN, 128]⟩ .f32 :=
  stage2 (aggK lw32 ei (stage1 (aggK lw64 ei (stage0 x W1 (dcol ei))) (dcol ei) (shapeCast ⟨2, ![1, 64]⟩ b1 lw64.cr) W2))
    (dcol ei) (shapeCast ⟨2, ![1, 32]⟩ b2 lw32.cr) Wl (shapeCast ⟨2, ![1, 128]⟩ bl lw128.cr)

/-- The second way: the per-edge factors inside the aggregation. -/
def ROUT : FVec Ideal ⟨2, ![NN, 128]⟩ .f32 :=
  addf (Host.dotGeneral (F := Ideal) (dotP NN 32 128 wd3) none
      (refLayer lw32 ei (Host.dotGeneral (F := Ideal) (dotP NN 64 32 wd2) none
        (refLayer lw64 ei (Host.dotGeneral (F := Ideal) (dotP NN 128 64 wd1) none x W1) b1) W2) b2) Wl)
    (biasAll lw128 bl)

end Whole

end Cert.Gcn

end
-- ==== Proof.Region0.lean ====
/-
  The first dense stage as one whole-array function: after the ten row blocks are written back, the output array holds,
  at node i and column q, the product (x W)(i, q) scaled by node i's factor.
-/
import proofs.«165941_j32152125177955_2_alg».proof.Proof.Gen.KernelIdeal.Frame
import proofs.«165941_j32152125177955_2_alg».proof.Proof.Spec

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen

namespace R0

/-- A column carried across the 64 columns, read at an index: the column's entry on the same row. -/
theorem column_across_apply (x : Vec Ideal S5000x1 .f32) (p : Fin 5000) (q : Fin 64) :
    broadcastTo S5000x64 x broadcasts_S5000x1_S5000x64 (ix2 p q) = x (ix2 p (⟨0, Nat.one_pos⟩ : Fin 1)) := by
  refine broadcastTo_apply x broadcasts_S5000x1_S5000x64 (ix2 p q) (ix2 p (⟨0, Nat.one_pos⟩ : Fin 1)) ?_
  intro a
  match a with
  | ⟨0, _⟩ => rfl
  | ⟨1, _⟩ => rfl

/-- What the body stores, of the three blocks it loads: the first dense stage of a block of 5000 rows. The
    narrowing of the operands is the identity over the extended reals, the product into the zero accumulator is the
    matrix product, and the column is carried across the columns. -/
theorem stored_eq_stage0 (x0 : Vec Ideal S5000x128 .f32) (x1 : Vec Ideal S128x64 .f32) (x2 : Vec Ideal S5000x1 .f32) :
    k0_pay1 (F := Ideal) x0 x1 x2 = Cert.Gcn.stage0 x0 x1 x2 := by
  funext j
  obtain ⟨p, q, rfl⟩ : ∃ (p : Fin 5000) (q : Fin 64), j = ix2 p q := ⟨j 0, j 1, eq_ix2 j⟩
  unfold k0_pay1
  refine (mulf_apply _ _ _).trans ?_
  have hm := Cert.LibMatmul.matmul_zero_eq (φ₁ := .bf16) (φ₂ := .bf16) dot_S5000x128_S128x64_S5000x64_1_0_0_1_n_n rfl rfl rfl rfl rfl rfl none
    (truncf .bf16 x0 bitsLt_bf16_f32) (truncf .bf16 x1 bitsLt_bf16_f32)
  have hs : shapeCast S5000x1 x2 shapeCasts_S5000x1_S5000x1 = x2 := shapeCast_self x2 _
  refine (congrArg₂ (· * ·) (congrFun hm (ix2 p q))
    ((congrFun (congrArg (fun v => broadcastTo S5000x64 v broadcasts_S5000x1_S5000x64) hs) (ix2 p q)).trans (column_across_apply x2 p q))).trans ?_
  rfl

/-- The first dense stage reads, at row p of its result, only row p of the left operand and of the column: a block
    of rows of the operands that agrees with the whole arrays on one row gives the whole arrays' result on that row. -/
theorem stage0_row_local {A a K B : Nat} (X : (⟨2, ![A, K]⟩ : Shape).Idx → EReal) (W : (⟨2, ![K, B]⟩ : Shape).Idx → EReal)
    (D : (⟨2, ![A, 1]⟩ : Shape).Idx → EReal) (x : (⟨2, ![a, K]⟩ : Shape).Idx → EReal) (w : (⟨2, ![K, B]⟩ : Shape).Idx → EReal)
    (d : (⟨2, ![a, 1]⟩ : Shape).Idx → EReal) (p : Fin a) (q : Fin B) (r : Fin A)
    (hx : ∀ k : Fin K, x (ix2 p k) = X (ix2 r k)) (hw : ∀ k : Fin K, w (ix2 k q) = W (ix2 k q))
    (hd : d (ix2 p (⟨0, Nat.one_pos⟩ : Fin 1)) = D (ix2 r (⟨0, Nat.one_pos⟩ : Fin 1))) :
    Cert.Gcn.stage0 x w d (ix2 p q) = Cert.Gcn.stage0 X W D (ix2 r q) := by
  show (∑ k : Fin K, x (ix2 p k) * w (ix2 k q)) * d (ix2 p (⟨0, Nat.one_pos⟩ : Fin 1))
    = (∑ k : Fin K, X (ix2 r k) * W (ix2 k q)) * D (ix2 r (⟨0, Nat.one_pos⟩ : Fin 1))
  rw [hd]
  refine congrArg (· * _) (Finset.sum_congr rfl fun k _ => ?_)
  rw [hx k, hw k]

/-- The offsets of a whole-buffer access are all zero. -/
theorem zero_offsets : (![0, 0] : Fin 2 → Nat) = fun _ => 0 := funext fun a => by fin_cases a <;> rfl

/-- The windows' index maps over the ten points: the row blocks of the node features, of the column and of
    the output move together, block t at point t, and every window sits at column block 0; the weights are one block. -/
theorem block_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section Region
variable (V : (c : Dev nD) → (b : Ref sig .tc) → Buf (Elt Ideal) ((c : Thread nD τ).loc b))

/-- What point t writes back is block t of the first dense stage of the arrays as the region finds them: row p of
    block t is row 5000 t + p of each array, and the weights' one block is the whole array. -/
theorem written_back_eq (c : Dev nD) (t : Fin cfg0.N) :
    (dat0 (F := Ideal) V c).flushed 3 t
      = ((cfg0.win 3).blk t).view.read (Elt Ideal) (Cert.Gcn.stage0 (V c main_arg0) (V c main_arg2) (V c main_v15)) := by
  show (cfg0.win 3).cut (grid0.coords t) ((dat0 (F := Ideal) V c).after 3 t) = _
  rw [after0_3]
  unfold out0_3
  rw [View.canon_unit_zero zero_offsets]
  simp only [View.ld_unit_zero (S := S5000x128) zero_offsets, View.ld_unit_zero (S := S128x64) zero_offsets, View.ld_unit_zero (S := S5000x1) zero_offsets]
  obtain ⟨e00, e01, e10, e11, e20, e21, e30, e31⟩ := block_index t
  refine funext fun (j : S5000x64.Idx) => ?_
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (ix2 p q)
     = Cert.Gcn.stage0 (V c main_arg0) (V c main_arg2) (V c main_v15) (((cfg0.win 3).blk t).view.emb (ix2 p q))
  refine (congrFun (stored_eq_stage0 (iblk0 V c 0 t) (iblk0 V c 1 t) (iblk0 V c 2 t)) (ix2 p q)).trans ?_
  have ht : t.val < 10 := t.isLt
  have hp : p.val < 5000 := p.isLt
  have hr : t.val * 5000 + p.val < 50000 := by omega
  have hemb : ((cfg0.win 3).blk t).view.emb (ix2 p q) = ix2 (⟨t.val * 5000 + p.val, hr⟩ : Fin 50000) q := by
    funext a; apply Fin.ext
    match a with
    | ⟨0, _⟩ => show win0_3.index t (0 : Fin 2) * 5000 + 1 * p.val = t.val * 5000 + p.val; omega
    | ⟨1, _⟩ => show win0_3.index t (1 : Fin 2) * 64 + 1 * q.val = q.val; omega
  refine (stage0_row_local (A := 50000) (a := 5000) (K := 128) (B := 64) (V c main_arg0) (V c main_arg2) (V c main_v15)
    (iblk0 V c 0 t) (iblk0 V c 1 t) (iblk0 V c 2 t) p q ⟨t.val * 5000 + p.val, hr⟩ ?_ ?_ ?_).trans
    (congrArg (Cert.Gcn.stage0 (V c main_arg0) (V c main_arg2) (V c main_v15)) hemb.symm)
  · intro k
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = t.val * 5000 + p.val; omega
    | ⟨1, _⟩ => show win0_0.index t (1 : Fin 2) * 128 + 1 * k.val = k.val; omega
  · intro k
    show V c main_arg2 (((cfg0.win 1).blk t).view.emb (ix2 k q)) = _
    refine congrArg (V c main_arg2) (funext fun a => Fin.ext ?_)
    match a with
    | ⟨0, _⟩ => show win0_1.index t (0 : Fin 2) * 128 + 1 * k.val = k.val; omega
    | ⟨1, _⟩ => show win0_1.index t (1 : Fin 2) * 64 + 1 * q.val = q.val; omega
  · show V c main_v15 (((cfg0.win 2).blk t).view.emb (ix2 p (⟨0, Nat.one_pos⟩ : Fin 1))) = _
    refine congrArg (V c main_v15) (funext fun a => Fin.ext ?_)
    match a with
    | ⟨0, _⟩ => show win0_2.index t (0 : Fin 2) * 5000 + 1 * p.val = t.val * 5000 + p.val; omega
    | ⟨1, _⟩ => show win0_2.index t (1 : Fin 2) * 1 + 1 * 0 = 0; omega

end Region

/-- An index of the output array is in point t's block iff each coordinate is in the block's range on its axis. -/
theorem mem_block_iff (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v16).slice (win0_3.rect t)).set ↔ _
  rw [View.set_slice_whole, Rect.mem_set_unit]
  exact Iff.rfl

/-- The ten row blocks fill the output array: row r is in the block of point r / 5000, and every point writes back. -/
theorem rows_covered (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ : ∃ t : Fin cfg0.N, t.val = (i 0).val / 5000 :=
    ⟨⟨(i 0).val / 5000, by show (i 0).val / 5000 < 10; omega⟩, rfl⟩
  obtain ⟨-, -, -, -, -, -, e30, e31⟩ := block_index t
  refine ⟨t, flush0_3 t, ?_⟩
  rw [mem_block_iff]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

end R0

/-- After the ten write-backs the output array holds the first dense stage of the arrays the region found. -/
theorem region0_value (V : (c : Dev nD) → (b : Ref sig .tc) → Buf (Elt Ideal) ((c : Thread nD τ).loc b)) (c : Dev nD) :
    (dat0 (F := Ideal) V c).arrAt 3 cfg0.N = Cert.Gcn.stage0 (V c main_arg0) (V c main_arg2) (V c main_v15) :=
  (dat0 (F := Ideal) V c).arrAt_eq_of_cover 3 (Cert.Gcn.stage0 (V c main_arg0) (V c main_arg2) (V c main_v15))
    (fun t _ => R0.written_back_eq V c t) R0.rows_covered

end Cert.KernelIdeal.RegionValue

end
-- ==== Proof.Region1.lean ====
/-
  The middle dense stage as one whole-array function: the rectified (aggregate * factor + bias) times W, each row scaled
  by its node's factor.
-/
import proofs.«165941_j32152125177955_2_alg».proof.Proof.Gen.KernelIdeal.Frame
import proofs.«165941_j32152125177955_2_alg».proof.Proof.Spec

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen

/-! The middle stage's lemmas, in a namespace of their own. -/
namespace R1

/-- A column carried across the columns, read at an entry. -/
theorem bcast_col {C : Nat} (x : (⟨2, ![5000, 1]⟩ : Shape).Idx → EReal) (h : (⟨2, ![5000, 1]⟩ : Shape).Broadcasts ⟨2, ![5000, C]⟩)
    (p : Fin 5000) (q : Fin C) : broadcastTo ⟨2, ![5000, C]⟩ x h (ix2 p q) = x (ix2 p (⟨0, Nat.one_pos⟩ : Fin 1)) := by
  refine broadcastTo_apply x h (ix2 p q) _ fun a => ?_
  match a with
  | ⟨0, _⟩ => exact (if_neg (by decide : ¬ (5000 : Nat) = 1)).symm
  | ⟨1, _⟩ => exact (if_pos rfl).symm

/-- A row carried down the rows, read at an entry. -/
theorem bcast_row {C : Nat} (hC : C ≠ 1) (x : (⟨2, ![1, C]⟩ : Shape).Idx → EReal) (h : (⟨2, ![1, C]⟩ : Shape).Broadcasts ⟨2, ![5000, C]⟩)
    (p : Fin 5000) (q : Fin C) : broadcastTo ⟨2, ![5000, C]⟩ x h (ix2 p q) = x (ix2 (⟨0, Nat.one_pos⟩ : Fin 1) q) := by
  refine broadcastTo_apply x h (ix2 p q) _ fun a => ?_
  match a with
  | ⟨0, _⟩ => exact (if_pos rfl).symm
  | ⟨1, _⟩ => exact (if_neg hC).symm

/-- The block's payload is the middle dense stage of the blocks. -/
theorem pay_eq (x0 : Vec Ideal S5000x64 .f32) (x1 : Vec Ideal S5000x1 .f32) (x2 : Vec Ideal S1x64 .f32) (x3 : Vec Ideal S64x32 .f32) :
    k1_pay1 (F := Ideal) x0 x1 x2 x3 x1 = Cert.Gcn.stage1 x0 x1 x2 x3 := by
  funext j
  obtain ⟨p, q, rfl⟩ : ∃ (p : Fin 5000) (q : Fin 32), j = ix2 p q := ⟨j 0, j 1, eq_ix2 j⟩
  unfold k1_pay1
  refine (mulf_apply _ _ _).trans ?_
  unfold Cert.Gcn.stage1 Cert.Gcn.scaled
  refine congrArg₂ (· * ·) ?_ ?_
  · refine (congrFun (Cert.LibMatmul.matmul_zero_eq dot_S5000x64_S64x32_S5000x32_1_0_0_1_n_n rfl rfl rfl rfl rfl rfl none _ _) _).trans ?_
    unfold Cert.LibMatmul.MM
    refine Finset.sum_congr rfl fun k _ => ?_
    refine congrArg₂ (· * ·) ?_ rfl
    show max (shapeCast S5000x64 x0 shapeCasts_S5000x64_S5000x64 (ix2 p k)
        * broadcastTo S5000x64 (shapeCast S5000x1 x1 shapeCasts_S5000x1_S5000x1) broadcasts_S5000x1_S5000x64 (ix2 p k)
        + broadcastTo S5000x64 (shapeCast S1x64 x2 shapeCasts_S1x64_S1x64) broadcasts_S1x64_S5000x64 (ix2 p k))
        (Ideal.ofBits .f32 0x00000000#32)
      = max (x0 (ix2 p k) * x1 (ix2 p (⟨0, Nat.one_pos⟩ : Fin 1)) + x2 (ix2 (⟨0, Nat.one_pos⟩ : Fin 1) k)) 0
    rw [bcast_col, bcast_row (by decide), shapeCast_self, shapeCast_self, shapeCast_self, Ideal.ofBits_zero_f32]
  · exact (bcast_col _ _ p q).trans (congrFun (shapeCast_self x1 _) _)

/-- An entry of the middle dense stage reads one row of the aggregate, that row's factor, the bias row and one column of W:
    two settings that agree on those give the same entry. -/
theorem stage1_congr {A A' K B : Nat}
    (a' : (⟨2, ![A', K]⟩ : Shape).Idx → EReal) (d' : (⟨2, ![A', 1]⟩ : Shape).Idx → EReal)
    (b' : (⟨2, ![1, K]⟩ : Shape).Idx → EReal) (w' : (⟨2, ![K, B]⟩ : Shape).Idx → EReal)
    (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal)
    (i' : (⟨2, ![A', B]⟩ : Shape).Idx) (i : (⟨2, ![A, B]⟩ : Shape).Idx)
    (ha : ∀ k : Fin K, a' (ix2 (i' 0) k) = a (ix2 (i 0) k))
    (hd : d' (ix2 (i' 0) (⟨0, Nat.one_pos⟩ : Fin 1)) = d (ix2 (i 0) (⟨0, Nat.one_pos⟩ : Fin 1)))
    (hb : ∀ k : Fin K, b' (ix2 (⟨0, Nat.one_pos⟩ : Fin 1) k) = b (ix2 (⟨0, Nat.one_pos⟩ : Fin 1) k))
    (hw : ∀ k : Fin K, w' (ix2 k (i' 1)) = w (ix2 k (i 1))) :
    Cert.Gcn.stage1 a' d' b' w' i' = Cert.Gcn.stage1 a d b w i := by
  show (∑ k : Fin K, max (a' (ix2 (i' 0) k) * d' (ix2 (i' 0) (⟨0, Nat.one_pos⟩ : Fin 1)) + b' (ix2 (⟨0, Nat.one_pos⟩ : Fin 1) k)) 0 * w' (ix2 k (i' 1)))
      * d' (ix2 (i' 0) (⟨0, Nat.one_pos⟩ : Fin 1))
    = (∑ k : Fin K, max (a (ix2 (i 0) k) * d (ix2 (i 0) (⟨0, Nat.one_pos⟩ : Fin 1)) + b (ix2 (⟨0, Nat.one_pos⟩ : Fin 1) k)) 0 * w (ix2 k (i 1)))
      * d (ix2 (i 0) (⟨0, Nat.one_pos⟩ : Fin 1))
  rw [hd]
  refine congrArg (· * _) (Finset.sum_congr rfl fun k _ => ?_)
  rw [ha k, hb k, hw k]

theorem origin2 : (![0, 0] : Fin 2 → Nat) = fun _ => 0 := funext fun a => by fin_cases a <;> rfl

/-- The printed index maps, decided over the grid: the aggregate's, the factor column's and the output's blocks are the
    point's block of rows; the bias row and W are whole. -/
theorem index_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- What point t writes back is its block of rows of the middle dense stage of the whole arrays. -/
theorem flushed_eq (V : (c : Dev nD) → (b : Ref sig .tc) → Buf (Elt Ideal) ((c : Thread nD τ).loc b)) (c : Dev nD) (t : Fin cfg1.N) :
    (dat1 (F := Ideal) V c).flushed 4 t = ((cfg1.win 4).blk t).view.read (Elt Ideal)
      (Cert.Gcn.stage1 (V c main_v26) (V c main_v15) (V c main_v27) (V c main_arg4)) := by
  show (cfg1.win 4).cut (grid1.coords t) ((dat1 V c).after 4 t) = _
  rw [after1_4]
  unfold out1_4
  rw [View.canon_unit_zero origin2]
  simp only [View.ld_unit_zero (S := S5000x64) origin2, View.ld_unit_zero (S := S5000x1) origin2,
    View.ld_unit_zero (S := S1x64) origin2, View.ld_unit_zero (S := S64x32) origin2]
  rw [pay_eq]
  obtain ⟨e00, e01, e10, e11, e20, e21, e30, e31, e40, e41⟩ := index_facts t
  funext j
  refine stage1_congr (A := 50000) (A' := 5000) (K := 64) (B := 32) (iblk1 V c 0 t) (iblk1 V c 1 t) (iblk1 V c 2 t) (iblk1 V c 3 t)
    (V c main_v26) (V c main_v15) (V c main_v27) (V c main_arg4) j (((cfg1.win 4).blk t).view.emb j) (fun k => ?_) ?_ (fun k => ?_) (fun k => ?_)
  · show V c main_v26 (((cfg1.win 0).blk t).view.emb (ix2 (j 0) k)) = V c main_v26 (ix2 (((cfg1.win 4).blk t).view.emb j 0) k)
    refine congrArg _ (funext fun a => Fin.ext ?_)
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * k.val = k.val; omega
  · show V c main_v15 (((cfg1.win 1).blk t).view.emb (ix2 (j 0) (⟨0, Nat.one_pos⟩ : Fin 1)))
      = V c main_v15 (ix2 (((cfg1.win 4).blk t).view.emb j 0) (⟨0, Nat.one_pos⟩ : Fin 1))
    refine congrArg _ (funext fun a => Fin.ext ?_)
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  · show V c main_v27 (((cfg1.win 2).blk t).view.emb (ix2 (⟨0, Nat.one_pos⟩ : Fin 1) k)) = V c main_v27 (ix2 (⟨0, Nat.one_pos⟩ : Fin 1) k)
    refine congrArg _ (funext fun a => Fin.ext ?_)
    match a with
    | ⟨0, _⟩ => show win1_2.index t (0 : Fin 2) * 1 + 1 * 0 = 0; omega
    | ⟨1, _⟩ => show win1_2.index t (1 : Fin 2) * 64 + 1 * k.val = k.val; omega
  · show V c main_arg4 (((cfg1.win 3).blk t).view.emb (ix2 k (j 1))) = V c main_arg4 (ix2 k (((cfg1.win 4).blk t).view.emb j 1))
    refine congrArg _ (funext fun a => Fin.ext ?_)
    match a with
    | ⟨0, _⟩ => show win1_3.index t (0 : Fin 2) * 64 + 1 * k.val = k.val; omega
    | ⟨1, _⟩ => show win1_3.index t (1 : Fin 2) * 32 + 1 * (j 1).val = win1_4.index t (1 : Fin 2) * 32 + 1 * (j 1).val; omega

/-- An index of the output array is in point t's block iff each coordinate is in the block's range on its axis. -/
theorem mem_blk (t : Fin cfg1.N) (i : S50000x32.Idx) :
    i ∈ ((cfg1.win 4).blk t).view.set ↔ ∀ a : Fin 2, win1_4.index t a * S5000x32.size a ≤ (i a).val
      ∧ (i a).val < win1_4.index t a * S5000x32.size a + S5000x32.size a := by
  show i ∈ ((View.whole main_v28).slice (win1_4.rect t)).set ↔ _
  rw [View.set_slice_whole, Rect.mem_set_unit]
  exact Iff.rfl

/-- Row r of the output is written back by point r / 5000. -/
theorem covered (i : S50000x32.Idx) : ∃ t : Fin cfg1.N, (cfg1.win 4).flush t = true ∧ i ∈ ((cfg1.win 4).blk t).view.set := by
  have hi0 : (i 0).val < 50000 := (i 0).isLt
  have hi1 : (i 1).val < 32 := (i 1).isLt
  have hN : cfg1.N = 10 := N_1
  have ht : (i 0).val / 5000 < cfg1.N := by rw [hN]; omega
  obtain ⟨-, -, -, -, -, -, -, -, e40, e41⟩ := index_facts ⟨(i 0).val / 5000, ht⟩
  have e40' : win1_4.index ⟨(i 0).val / 5000, ht⟩ (0 : Fin 2) = (i 0).val / 5000 := e40
  refine ⟨⟨(i 0).val / 5000, ht⟩, flush1_4 _, ?_⟩
  rw [mem_blk]
  intro a
  match a with
  | ⟨0, _⟩ =>
    show win1_4.index ⟨(i 0).val / 5000, ht⟩ (0 : Fin 2) * 5000 ≤ (i 0).val
      ∧ (i 0).val < win1_4.index ⟨(i 0).val / 5000, ht⟩ (0 : Fin 2) * 5000 + 5000
    omega
  | ⟨1, _⟩ =>
    show win1_4.index ⟨(i 0).val / 5000, ht⟩ (1 : Fin 2) * 32 ≤ (i 1).val
      ∧ (i 1).val < win1_4.index ⟨(i 0).val / 5000, ht⟩ (1 : Fin 2) * 32 + 32
    omega

end R1

/-- After the region's run the output array holds the middle dense stage of the arrays the region was entered with. -/
theorem region1_value (V : (c : Dev nD) → (b : Ref sig .tc) → Buf (Elt Ideal) ((c : Thread nD τ).loc b)) (c : Dev nD) :
    (dat1 (F := Ideal) V c).arrAt 4 cfg1.N = Cert.Gcn.stage1 (V c main_v26) (V c main_v15) (V c main_v27) (V c main_arg4) :=
  (dat1 (F := Ideal) V c).arrAt_eq_of_cover 4 _ (fun t _ => R1.flushed_eq V c t) R1.covered

end Cert.KernelIdeal.RegionValue

end
-- ==== Proof.Region2.lean ====
/-
  The last dense stage as one whole-array function: the rectified (aggregate * factor + bias) times W, plus the output bias.
-/
import proofs.«165941_j32152125177955_2_alg».proof.Proof.Gen.KernelIdeal.Frame
import proofs.«165941_j32152125177955_2_alg».proof.Proof.Spec

set_option maxRecDepth 16384

noncomputable section

namespace Cert.KernelIdeal.RegionValue

open Idealize.ShloMosaic Idealize.ShloMosaic.TcCoe Idealize.SL.Sem Idealize.ShloMosaic.ValueIdx Cert.KernelIdeal Cert.KernelIdeal.Gen

namespace R2

/-- The zero of the one-element axis. -/
abbrev z1 : Fin 1 := ⟨0, Nat.one_pos⟩

/-- A column [5000,1] carried across 32 columns reads the column's entry of the same row. -/
theorem col_bcast (x : FVec Ideal S5000x1 .f32) (p : Fin 5000) (k : Fin 32) :
    broadcastTo S5000x32 x broadcasts_S5000x1_S5000x32 (ix2 p k) = x (ix2 p z1) := by
  refine broadcastTo_apply x _ (ix2 p k) (ix2 p z1) fun a => ?_
  match a with
  | ⟨0, _⟩ => rfl
  | ⟨1, _⟩ => rfl

/-- A row [1,32] carried down 5000 rows reads the row's entry of the same column. -/
theorem row_bcast32 (x : FVec Ideal S1x32 .f32) (p : Fin 5000) (k : Fin 32) :
    broadcastTo S5000x32 x broadcasts_S1x32_S5000x32 (ix2 p k) = x (ix2 z1 k) := by
  refine broadcastTo_apply x _ (ix2 p k) (ix2 z1 k) fun a => ?_
  match a with
  | ⟨0, _⟩ => rfl
  | ⟨1, _⟩ => rfl

/-- A row [1,128] carried down 5000 rows reads the row's entry of the same column. -/
theorem row_bcast128 (x : FVec Ideal S1x128 .f32) (p : Fin 5000) (q : Fin 128) :
    broadcastTo S5000x128 x broadcasts_S1x128_S5000x128 (ix2 p q) = x (ix2 z1 q) := by
  refine broadcastTo_apply x _ (ix2 p q) (ix2 z1 q) fun a => ?_
  match a with
  | ⟨0, _⟩ => rfl
  | ⟨1, _⟩ => rfl

/-- The rectified (block * column + row) of a block is the activation entering the dense stage. -/
theorem act_eq (x0 : FVec Ideal S5000x32 .f32) (x1 : FVec Ideal S5000x1 .f32) (x2 : FVec Ideal S1x32 .f32) :
    maximumf (addf (mulf x0 (broadcastTo S5000x32 x1 broadcasts_S5000x1_S5000x32))
        (broadcastTo S5000x32 x2 broadcasts_S1x32_S5000x32))
      (broadcast S5000x32 (FloatOps.ofBits (F := Ideal) FTy.f32 0x00000000#32)) = Cert.Gcn.act x0 x1 x2 := by
  funext j
  obtain ⟨p, k, rfl⟩ : ∃ (p : Fin 5000) (k : Fin 32), j = ix2 p k := ⟨j 0, j 1, eq_ix2 j⟩
  show max (x0 (ix2 p k) * broadcastTo S5000x32 x1 broadcasts_S5000x1_S5000x32 (ix2 p k)
      + broadcastTo S5000x32 x2 broadcasts_S1x32_S5000x32 (ix2 p k)) (Ideal.ofBits .f32 0x00000000#32)
    = max (x0 (ix2 p k) * x1 (ix2 p z1) + x2 (ix2 z1 k)) 0
  rw [col_bcast, row_bcast32, Ideal.ofBits_zero_f32]

/-- The body's payload on a block of 5000 rows is the last dense stage of the block. -/
theorem pay_eq (x0 : FVec Ideal S5000x32 .f32) (x1 : FVec Ideal S5000x1 .f32) (x2 : FVec Ideal S1x32 .f32)
    (x3 : FVec Ideal S32x128 .f32) (x4 : FVec Ideal S1x128 .f32) :
    k2_pay1 (F := Ideal) x0 x1 x2 x3 x4 = Cert.Gcn.stage2 x0 x1 x2 x3 x4 := by
  funext j
  obtain ⟨p, q, rfl⟩ : ∃ (p : Fin 5000) (q : Fin 128), j = ix2 p q := ⟨j 0, j 1, eq_ix2 j⟩
  unfold k2_pay1
  rw [shapeCast_self x0, shapeCast_self x1, shapeCast_self x2, shapeCast_self x4, act_eq]
  show FloatOps.matmul (F := Ideal) dot_S5000x32_S32x128_S5000x128_1_0_0_1_n_n none
        (truncf FTy.bf16 (Cert.Gcn.act x0 x1 x2) bitsLt_bf16_f32) (truncf FTy.bf16 x3 bitsLt_bf16_f32)
        (constant (F := Ideal) S5000x128 FTy.f32 0x00000000#32) (ix2 p q)
      + broadcastTo S5000x128 x4 broadcasts_S1x128_S5000x128 (ix2 p q)
    = Cert.LibMatmul.MM (Cert.Gcn.act x0 x1 x2) x3 (ix2 p q) + x4 (ix2 z1 q)
  rw [row_bcast128, Cert.LibMatmul.matmul_zero_eq _ rfl rfl rfl rfl rfl rfl]
  rfl

/-- The zero offsets of a whole-buffer rectangle, spelt as a function. -/
theorem zero_off : (![0, 0] : Fin 2 → Nat) = fun _ => 0 := funext fun a => by fin_cases a <;> rfl

/-- The last dense stage of a block of rows is the stage of the whole arrays at those rows: row p of the block is
    row r of the arrays, the bias rows and the weights are the arrays' own. -/
theorem stage2_rows (a : S50000x32.Idx → EReal) (d : S50000x1.Idx → EReal) (b : S1x32.Idx → EReal)
    (w : S32x128.Idx → EReal) (bl : S1x128.Idx → EReal)
    (x0 : S5000x32.Idx → EReal) (x1 : S5000x1.Idx → EReal) (x2 : S1x32.Idx → EReal)
    (x3 : S32x128.Idx → EReal) (x4 : S1x128.Idx → EReal) (p : Fin 5000) (r : Fin 50000) (q : Fin 128)
    (h0 : ∀ k : Fin 32, x0 (ix2 p k) = a (ix2 r k)) (h1 : x1 (ix2 p z1) = d (ix2 r z1))
    (h2 : x2 = b) (h3 : x3 = w) (h4 : x4 = bl) :
    Cert.Gcn.stage2 x0 x1 x2 x3 x4 (ix2 p q) = Cert.Gcn.stage2 a d b w bl (ix2 r q) := by
  subst h2 h3 h4
  show (∑ k : Fin 32, max (x0 (ix2 p k) * x1 (ix2 p z1) + x2 (ix2 z1 k)) 0 * x3 (ix2 k q)) + x4 (ix2 z1 q)
    = (∑ k : Fin 32, max (a (ix2 r k) * d (ix2 r z1) + x2 (ix2 z1 k)) 0 * x3 (ix2 k q)) + x4 (ix2 z1 q)
  rw [h1]
  simp only [h0]

/-- The index maps over the ten grid points: the row blocks of the aggregate, of the factor column and of the
    output move together and sit at column block 0; the bias rows and the weights are whole, at block (0, 0). -/
theorem idx_facts : ∀ t : Fin cfg2.N,
    win2_0.index t (0 : Fin 2) = win2_5.index t (0 : Fin 2) ∧ win2_0.index t (1 : Fin 2) = 0
    ∧ win2_1.index t (0 : Fin 2) = win2_5.index t (0 : Fin 2) ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 9 ∧ win2_5.index t (1 : Fin 2) = 0 :=
  (by decide +kernel : ∀ t : Fin grid2.N, _)

/-- Every row block of the output is some point's. -/
theorem idx_onto : ∀ q0 : Fin 10, ∃ t : Fin cfg2.N, win2_5.index t = ![q0.val, 0] :=
  (by decide +kernel : ∀ q0 : Fin 10, ∃ t : Fin grid2.N, win2_5.index t = ![q0.val, 0])

/-- The same at any index of the block and any index of the arrays on the matching row and the same column. -/
theorem stage2_at (a : S50000x32.Idx → EReal) (d : S50000x1.Idx → EReal) (b : S1x32.Idx → EReal)
    (w : S32x128.Idx → EReal) (bl : S1x128.Idx → EReal)
    (x0 : S5000x32.Idx → EReal) (x1 : S5000x1.Idx → EReal) (x2 : S1x32.Idx → EReal)
    (x3 : S32x128.Idx → EReal) (x4 : S1x128.Idx → EReal) (j : S5000x128.Idx) (i : S50000x128.Idx)
    (h0 : ∀ k : Fin 32, x0 (ix2 (j 0 : Fin 5000) k) = a (ix2 (i 0 : Fin 50000) k))
    (h1 : x1 (ix2 (j 0 : Fin 5000) z1) = d (ix2 (i 0 : Fin 50000) z1))
    (h2 : x2 = b) (h3 : x3 = w) (h4 : x4 = bl) (hq : (j 1).val = (i 1).val) :
    Cert.Gcn.stage2 x0 x1 x2 x3 x4 j = Cert.Gcn.stage2 a d b w bl i := by
  obtain ⟨p, q, rfl⟩ : ∃ (p : Fin 5000) (q : Fin 128), j = ix2 p q := ⟨j 0, j 1, eq_ix2 j⟩
  obtain ⟨r, q', rfl⟩ : ∃ (r : Fin 50000) (q' : Fin 128), i = ix2 r q' := ⟨i 0, i 1, eq_ix2 i⟩
  have hqq : q = q' := Fin.ext hq
  subst hqq
  exact stage2_rows a d b w bl x0 x1 x2 x3 x4 p r q h0 h1 h2 h3 h4

section Region
variable (V : (c : Dev nD) → (b : Ref sig .tc) → Buf (Elt Ideal) ((c : Thread nD τ).loc b))

/-- What point t writes back is block t of the last dense stage of the arrays as the region finds them. -/
theorem flushed_eq (c : Dev nD) (t : Fin cfg2.N) :
    (dat2 (F := Ideal) V c).flushed 5 t = ((cfg2.win 5).blk t).view.read (Elt Ideal)
      (Cert.Gcn.stage2 (V c main_v38) (V c main_v15) (V c main_v39) (V c main_arg6) (V c main_v40)) := by
  show (cfg2.win 5).cut (grid2.coords t) ((dat2 V c).after 5 t) = _
  rw [after2_5]
  unfold out2_5
  rw [View.canon_unit_zero zero_off]
  simp only [View.ld_unit_zero (S := S5000x32) zero_off, View.ld_unit_zero (S := S5000x1) zero_off,
    View.ld_unit_zero (S := S1x32) zero_off, View.ld_unit_zero (S := S32x128) zero_off,
    View.ld_unit_zero (S := S1x128) zero_off]
  obtain ⟨e00, e01, e10, e11, e20, e21, e30, e31, e40, e41, e5le, e51⟩ := idx_facts t
  funext j
  refine (congrFun (pay_eq (iblk2 V c 0 t) (iblk2 V c 1 t) (iblk2 V c 2 t) (iblk2 V c 3 t) (iblk2 V c 4 t)) j).trans ?_
  show Cert.Gcn.stage2 (iblk2 V c 0 t) (iblk2 V c 1 t) (iblk2 V c 2 t) (iblk2 V c 3 t) (iblk2 V c 4 t) j
    = Cert.Gcn.stage2 (V c main_v38) (V c main_v15) (V c main_v39) (V c main_arg6) (V c main_v40)
        (((cfg2.win 5).blk t).view.emb j)
  refine stage2_at (V c main_v38) (V c main_v15) (V c main_v39) (V c main_arg6) (V c main_v40)
    (iblk2 V c 0 t) (iblk2 V c 1 t) (iblk2 V c 2 t) (iblk2 V c 3 t) (iblk2 V c 4 t) j
    (((cfg2.win 5).blk t).view.emb j) ?_ ?_ ?_ ?_ ?_ ?_
  · intro k
    show V c main_v38 (((cfg2.win 0).blk t).view.emb (ix2 (j 0) k))
      = V c main_v38 (ix2 ((((cfg2.win 5).blk t).view.emb j) 0) k)
    refine congrArg (V c main_v38) (funext fun a => Fin.ext ?_)
    match a with
    | ⟨0, _⟩ =>
      show win2_0.index t (0 : Fin 2) * 5000 + 1 * (j 0).val = win2_5.index t (0 : Fin 2) * 5000 + 1 * (j 0).val
      omega
    | ⟨1, _⟩ =>
      show win2_0.index t (1 : Fin 2) * 32 + 1 * k.val = k.val
      omega
  · show V c main_v15 (((cfg2.win 1).blk t).view.emb (ix2 (j 0) z1))
      = V c main_v15 (ix2 ((((cfg2.win 5).blk t).view.emb j) 0) z1)
    refine congrArg (V c main_v15) (funext fun a => Fin.ext ?_)
    match a with
    | ⟨0, _⟩ =>
      show win2_1.index t (0 : Fin 2) * 5000 + 1 * (j 0).val = win2_5.index t (0 : Fin 2) * 5000 + 1 * (j 0).val
      omega
    | ⟨1, _⟩ =>
      show win2_1.index t (1 : Fin 2) * 1 + 1 * 0 = 0
      omega
  · funext y
    show V c main_v39 (((cfg2.win 2).blk t).view.emb y) = V c main_v39 y
    refine congrArg (V c main_v39) (funext fun a => Fin.ext ?_)
    match a with
    | ⟨0, _⟩ => show win2_2.index t (0 : Fin 2) * 1 + 1 * (y 0).val = (y 0).val; omega
    | ⟨1, _⟩ => show win2_2.index t (1 : Fin 2) * 32 + 1 * (y 1).val = (y 1).val; omega
  · funext y
    show V c main_arg6 (((cfg2.win 3).blk t).view.emb y) = V c main_arg6 y
    refine congrArg (V c main_arg6) (funext fun a => Fin.ext ?_)
    match a with
    | ⟨0, _⟩ => show win2_3.index t (0 : Fin 2) * 32 + 1 * (y 0).val = (y 0).val; omega
    | ⟨1, _⟩ => show win2_3.index t (1 : Fin 2) * 128 + 1 * (y 1).val = (y 1).val; omega
  · funext y
    show V c main_v40 (((cfg2.win 4).blk t).view.emb y) = V c main_v40 y
    refine congrArg (V c main_v40) (funext fun a => Fin.ext ?_)
    match a with
    | ⟨0, _⟩ => show win2_4.index t (0 : Fin 2) * 1 + 1 * (y 0).val = (y 0).val; omega
    | ⟨1, _⟩ => show win2_4.index t (1 : Fin 2) * 128 + 1 * (y 1).val = (y 1).val; omega
  · show (j 1).val = win2_5.index t (1 : Fin 2) * 128 + 1 * (j 1).val
    omega

/-- An index of the output array is in point t's block iff each coordinate is in the block's range on its axis. -/
theorem mem_blk (t : Fin cfg2.N) (i : S50000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v41).slice (win2_5.rect t)).set ↔ _
  rw [View.set_slice_whole, Rect.mem_set_unit]
  exact Iff.rfl

/-- Every index of the output array is in some point's block: row r is in the block of point r / 5000. -/
theorem covered (i : S50000x128.Idx) :
    ∃ t : Fin cfg2.N, (cfg2.win 5).flush t = true ∧ i ∈ ((cfg2.win 5).blk t).view.set := by
  have hi0 : (i 0).val < 50000 := (i 0).isLt
  have hi1 : (i 1).val < 128 := (i 1).isLt
  obtain ⟨t, ht⟩ := idx_onto ⟨(i 0).val / 5000, by omega⟩
  have q0 : win2_5.index t (0 : Fin 2) = (i 0).val / 5000 := congrFun ht 0
  have q1 : win2_5.index t (1 : Fin 2) = 0 := congrFun ht 1
  refine ⟨t, flush2_5 t, ?_⟩
  rw [mem_blk]
  intro a
  match a with
  | ⟨0, _⟩ =>
    show win2_5.index t (0 : Fin 2) * 5000 ≤ (i 0).val ∧ (i 0).val < win2_5.index t (0 : Fin 2) * 5000 + 5000
    omega
  | ⟨1, _⟩ =>
    show win2_5.index t (1 : Fin 2) * 128 ≤ (i 1).val ∧ (i 1).val < win2_5.index t (1 : Fin 2) * 128 + 128
    omega

end Region

end R2

/-- After the ten points the output array holds the last dense stage of the arrays as the region finds them:
    every point writes back its block of rows of that one function, and the blocks cover the array. -/
theorem region2_value (V : (c : Dev nD) → (b : Ref sig .tc) → Buf (Elt Ideal) ((c : Thread nD τ).loc b)) (c : Dev nD) :
    (dat2 (F := Ideal) V c).arrAt 5 cfg2.N = Cert.Gcn.stage2 (V c main_v38) (V c main_v15) (V c main_v39) (V c main_arg6) (V c main_v40) :=
  (dat2 (F := Ideal) V c).arrAt_eq_of_cover 5 _ (fun t _ => R2.flushed_eq V c t) R2.covered

end Cert.KernelIdeal.RegionValue

end
-- ==== Proof.KernelValueHost.lean ====
/-
  The host steps between the dense stages, one stretch at a time: which buffers a stretch writes, and what it leaves
  in each buffer the stages read, as a term of the specification over the contents the stretch starts from.
-/
import proofs.«165941_j32152125177955_2_alg».proof.Proof.Gen.KernelIdeal.Frame
import proofs.«165941_j32152125177955_2_alg».proof.Proof.Spec
import Idealize.ShloMosaic.Lib.StableHlo.Run
set_option maxRecDepth 16384

noncomputable section

namespace Cert.KernelIdeal.KernelValue

open Idealize.ShloMosaic Idealize.ShloMosaic.TcCoe Idealize.SL.Sem Idealize.ShloMosaic.ValueIdx Cert.KernelIdeal Cert.KernelIdeal.Gen Idealize.ShloMosaic.StableHlo

/-! ## What each stretch of host operations writes, and what it therefore keeps -/

/-- Closes the claim that every operation of a literal stretch writes inside a literal list of references. -/
macro "writes_inside" : tactic =>
  `(tactic| (simp only [List.Forall]
             repeat' apply And.intro
             all_goals (simp only [StableHlo.nullary_writes, StableHlo.unary_writes, StableHlo.binary_writes,
               StableHlo.ternary_writes, StableHlo.quaternary_writes, StableHlo.reshape_writes,
               StableHlo.binaryIndexed_writes, Finset.singleton_subset_iff, List.mem_toFinset]
                        exact List.mem_map_of_mem (by decide))))

/-- The references the first stretch writes. -/
abbrev wr0 : List (Ref sig .tc) :=
  [main_v0, main_v1, main_v2, main_v3, main_v4, main_v5, main_v6, main_cst, main_v7, main_cst_0, main_v8, main_v9,
    main_v10, main_cst_1, main_v11, main_v12, main_v13, main_cst_2]
theorem writes0 : (hostOps0 : List (HloOp τ sig (Elt Ideal))).Forall fun op =>
    op.writes ⊆ (wr0.map (Proc.devRef (τ := τ) .tc)).toFinset := by writes_inside
theorem keep0 (W : Valuation τ sig (Elt Ideal)) (r : Ref sig .tc) (h : r ∉ wr0) :
    StableHlo.after (hostOps0 (F := Ideal)) W (Proc.devRef .tc r) = W (Proc.devRef .tc r) :=
  StableHlo.after_of_writes_sub _ _ writes0 h

/-- The references the selection's stretch writes. -/
abbrev wr01 : List (Ref sig .tc) := [main_call0_v0, main_call0_v1, main_v14]
theorem writes01 : (hostOps0_1 : List (HloOp τ sig (Elt Ideal))).Forall fun op =>
    op.writes ⊆ (wr01.map (Proc.devRef (τ := τ) .tc)).toFinset := by writes_inside
theorem keep01 (W : Valuation τ sig (Elt Ideal)) (r : Ref sig .tc) (h : r ∉ wr01) :
    StableHlo.after (hostOps0_1 (F := Ideal)) W (Proc.devRef .tc r) = W (Proc.devRef .tc r) :=
  StableHlo.after_of_writes_sub _ _ writes01 h

/-- The reference the recast to a column writes. -/
abbrev wr02 : List (Ref sig .tc) := [main_v15]
theorem writes02 : (hostOps0_2 : List (HloOp τ sig (Elt Ideal))).Forall fun op =>
    op.writes ⊆ (wr02.map (Proc.devRef (τ := τ) .tc)).toFinset := by
  simp only [List.Forall, StableHlo.reshape_writes, Finset.singleton_subset_iff, List.mem_toFinset]
  exact List.mem_map_of_mem (by decide)
theorem keep02 (W : Valuation τ sig (Elt Ideal)) (r : Ref sig .tc) (h : r ∉ wr02) :
    StableHlo.after (hostOps0_2 (F := Ideal)) W (Proc.devRef .tc r) = W (Proc.devRef .tc r) :=
  StableHlo.after_of_writes_sub _ _ writes02 h

/-- The references the stretch between the first and the middle dense stage writes. -/
abbrev wr1 : List (Ref sig .tc) :=
  [main_c, main_v17, main_v18, main_c_3, main_v19, main_v20, main_v21, main_v22, main_v23, main_cst_4, main_v24,
    main_v25, main_v26, main_v27]
theorem writes1 : (hostOps1 : List (HloOp τ sig (Elt Ideal))).Forall fun op =>
    op.writes ⊆ (wr1.map (Proc.devRef (τ := τ) .tc)).toFinset := by writes_inside
theorem keep1 (W : Valuation τ sig (Elt Ideal)) (r : Ref sig .tc) (h : r ∉ wr1) :
    StableHlo.after (hostOps1 (F := Ideal)) W (Proc.devRef .tc r) = W (Proc.devRef .tc r) :=
  StableHlo.after_of_writes_sub _ _ writes1 h

/-- The references the stretch between the middle and the last dense stage writes. -/
abbrev wr2 : List (Ref sig .tc) :=
  [main_c_5, main_v29, main_v30, main_c_6, main_v31, main_v32, main_v33, main_v34, main_v35, main_cst_7, main_v36,
    main_v37, main_v38, main_v39, main_v40]
theorem writes2 : (hostOps2 : List (HloOp τ sig (Elt Ideal))).Forall fun op =>
    op.writes ⊆ (wr2.map (Proc.devRef (τ := τ) .tc)).toFinset := by writes_inside
theorem keep2 (W : Valuation τ sig (Elt Ideal)) (r : Ref sig .tc) (h : r ∉ wr2) :
    StableHlo.after (hostOps2 (F := Ideal)) W (Proc.devRef .tc r) = W (Proc.devRef .tc r) :=
  StableHlo.after_of_writes_sub _ _ writes2 h

/-! ## What each stretch of host operations computes, over any contents it starts from

Each statement takes the contents of the buffers the stretch reads as hypotheses, so that the value it leaves is a term
of the specification over those contents alone. -/

section Host
variable (W : Valuation τ sig (Elt Ideal))

section Edges
variable (ei : IVec Cert.Gcn.sPairs 32) (h1 : W (Proc.devRef .tc main_arg1) = ei)
include h1

theorem h0_v5 : StableHlo.after (hostOps0 (F := Ideal)) W (Proc.devRef .tc main_v5) = Cert.Gcn.srcW ei := by
  after_results; rw [h1]; rfl
theorem h0_v6 : StableHlo.after (hostOps0 (F := Ideal)) W (Proc.devRef .tc main_v6) = Cert.Gcn.dstW ei := by
  after_results; rw [h1]; rfl
theorem h0_v12 : StableHlo.after (hostOps0 (F := Ideal)) W (Proc.devRef .tc main_v12)
    = cmpf (F := Ideal) .ogt (Cert.Gcn.deg ei) (broadcastInDim Cert.Gcn.sNode ![] Cert.Gcn.w_b_node Cert.Gcn.zeroS) := by
  after_results; rw [h1]; rfl
theorem h0_v13 : StableHlo.after (hostOps0 (F := Ideal)) W (Proc.devRef .tc main_v13)
    = Host.rsqrt (F := Ideal) (Cert.Gcn.deg ei) := by
  after_results; rw [h1]; rfl

end Edges

theorem h0_cst2 : StableHlo.after (hostOps0 (F := Ideal)) W (Proc.devRef .tc main_cst_2) = Cert.Gcn.zeroS := by
  after_results; rfl

/-! The selection's operations are stated over references that carry their value's type, the contents moved between
    the value's type and the buffer's along an equation of types that holds by computation: at a literal reference
    either move is the identity. -/

theorem ofBuf_toBuf {T : BufTy} (x : TRef sig T) (v : T.Contents (Elt Ideal)) : x.ofBuf (x.toBuf v) = v := by
  obtain ⟨r, h, hd, hu⟩ := x
  subst h
  rfl
theorem ofBuf_v12 (e : (⟨S50000, .i1⟩ : BufTy).Contents (Elt Ideal)) :
    (TRef.of main_v12 : TRef sig ⟨S50000, .i1⟩).ofBuf e = e := rfl
theorem ofBuf_v13 (e : (⟨S50000, .f32⟩ : BufTy).Contents (Elt Ideal)) :
    (TRef.of main_v13 : TRef sig ⟨S50000, .f32⟩).ofBuf e = e := rfl
theorem ofBuf_cst2 (e : (⟨S_, .f32⟩ : BufTy).Contents (Elt Ideal)) :
    (TRef.of main_cst_2 : TRef sig ⟨S_, .f32⟩).ofBuf e = e := rfl
theorem toBuf_v14 (e : (⟨S50000, .f32⟩ : BufTy).Contents (Elt Ideal)) :
    (TRef.of main_v14 : TRef sig ⟨S50000, .f32⟩).toBuf e = e := rfl

/-- The selection: the factor where the degree is positive, zero elsewhere. -/
theorem h01_v14 (ei : IVec Cert.Gcn.sPairs 32)
    (h12 : W (Proc.devRef .tc main_v12) = cmpf (F := Ideal) .ogt (Cert.Gcn.deg ei)
      (broadcastInDim Cert.Gcn.sNode ![] Cert.Gcn.w_b_node Cert.Gcn.zeroS))
    (h13 : W (Proc.devRef .tc main_v13) = Host.rsqrt (F := Ideal) (Cert.Gcn.deg ei))
    (hc : W (Proc.devRef .tc main_cst_2) = Cert.Gcn.zeroS) :
    StableHlo.after (hostOps0_1 (F := Ideal)) W (Proc.devRef .tc main_v14) = Cert.Gcn.dinv ei := by
  after_results
  rw [h12, h13, hc, ofBuf_toBuf, ofBuf_toBuf, ofBuf_v12, ofBuf_v13, ofBuf_cst2, toBuf_v14]
  first | rfl | fail "the selection is not the factor by computation"

/-- The factors recast as a column. -/
theorem h02_v15 (ei : IVec Cert.Gcn.sPairs 32) (h14 : W (Proc.devRef .tc main_v14) = Cert.Gcn.dinv ei) :
    StableHlo.after (hostOps0_2 (F := Ideal)) W (Proc.devRef .tc main_v15) = Cert.Gcn.dcol ei := by
  after_results
  rw [h14]; rfl

/-- The aggregation between the first and the middle dense stage, and the first bias as a row. -/
theorem h1_v26 (ei : IVec Cert.Gcn.sPairs 32) (h : FVec Ideal ⟨2, ![Cert.Gcn.NN, 64]⟩ .f32)
    (h5 : W (Proc.devRef .tc main_v5) = Cert.Gcn.srcW ei) (h6 : W (Proc.devRef .tc main_v6) = Cert.Gcn.dstW ei)
    (h16 : W (Proc.devRef .tc main_v16) = h) :
    StableHlo.after (hostOps1 (F := Ideal)) W (Proc.devRef .tc main_v26) = Cert.Gcn.aggK Cert.Gcn.lw64 ei h := by
  after_results
  rw [h5, h6, h16]; rfl
theorem h1_v27 (b : FVec Ideal ⟨1, ![64]⟩ .f32) (h3 : W (Proc.devRef .tc main_arg3) = b) :
    StableHlo.after (hostOps1 (F := Ideal)) W (Proc.devRef .tc main_v27)
      = shapeCast ⟨2, ![1, 64]⟩ b Cert.Gcn.lw64.cr := by
  after_results
  rw [h3]; rfl

/-- The aggregation between the middle and the last dense stage, and the last two biases as rows. -/
theorem h2_v38 (ei : IVec Cert.Gcn.sPairs 32) (h : FVec Ideal ⟨2, ![Cert.Gcn.NN, 32]⟩ .f32)
    (h5 : W (Proc.devRef .tc main_v5) = Cert.Gcn.srcW ei) (h6 : W (Proc.devRef .tc main_v6) = Cert.Gcn.dstW ei)
    (h28 : W (Proc.devRef .tc main_v28) = h) :
    StableHlo.after (hostOps2 (F := Ideal)) W (Proc.devRef .tc main_v38) = Cert.Gcn.aggK Cert.Gcn.lw32 ei h := by
  after_results
  rw [h5, h6, h28]; rfl
theorem h2_v39 (b : FVec Ideal ⟨1, ![32]⟩ .f32) (h5 : W (Proc.devRef .tc main_arg5) = b) :
    StableHlo.after (hostOps2 (F := Ideal)) W (Proc.devRef .tc main_v39)
      = shapeCast ⟨2, ![1, 32]⟩ b Cert.Gcn.lw32.cr := by
  after_results
  rw [h5]; rfl
theorem h2_v40 (b : FVec Ideal ⟨1, ![128]⟩ .f32) (h7 : W (Proc.devRef .tc main_arg7) = b) :
    StableHlo.after (hostOps2 (F := Ideal)) W (Proc.devRef .tc main_v40)
      = shapeCast ⟨2, ![1, 128]⟩ b Cert.Gcn.lw128.cr := by
  after_results
  rw [h7]; rfl

end Host

end Cert.KernelIdeal.KernelValue

end
-- ==== Proof.KernelValue.lean ====
/-
  What the program of three dense stages leaves in its result array, as one function of the argument arrays: the host
  steps between the stages composed with the stages' whole-array functions.
-/
import proofs.«165941_j32152125177955_2_alg».proof.Proof.Gen.KernelIdeal.Frame
import proofs.«165941_j32152125177955_2_alg».proof.Proof.Spec
import proofs.«165941_j32152125177955_2_alg».proof.Proof.Region0
import proofs.«165941_j32152125177955_2_alg».proof.Proof.Region1
import proofs.«165941_j32152125177955_2_alg».proof.Proof.Region2
import proofs.«165941_j32152125177955_2_alg».proof.Proof.KernelValueHost
import Idealize.ShloMosaic.Lib.StableHlo.Run
set_option maxRecDepth 16384

noncomputable section

namespace Cert.KernelIdeal.KernelValue

open Idealize.ShloMosaic Idealize.ShloMosaic.TcCoe Idealize.SL.Sem Idealize.ShloMosaic.ValueIdx Cert.KernelIdeal Cert.KernelIdeal.Gen Idealize.ShloMosaic.StableHlo

variable (m : (ℓ : Loc nD τ sig) → Buf (Elt Ideal) ℓ) (ρ : Dev nD → PrngReg)

/-! ## The contents at each boundary of the run, as terms of the argument arrays

The boundaries are: the launch; after the three host stretches that compute the edge words and the column of factors
(the first dense stage's entry); that stage's exit; after the first aggregation (the middle stage's entry); its exit;
after the second aggregation (the last stage's entry); its exit. -/

section Run
variable (c : Dev nD)

/-! ### An array that nothing so far has written is there as launched -/

theorem W3_keep (r : Ref sig .tc) (h0 : r ∉ wr0) (h1 : r ∉ wr01) (h2 : r ∉ wr02) :
    W3 (F := Ideal) m ρ c (Proc.devRef .tc r) = m ((c : Thread nD τ).loc r) :=
  (keep02 _ r h2).trans ((keep01 _ r h1).trans (keep0 _ r h0))
theorem W4_keep (r : Ref sig .tc) (h0 : r ∉ wr0) (h1 : r ∉ wr01) (h2 : r ∉ wr02)
    (hr0 : ∀ w, Pipeline.arrRef spec0 w ≠ r) :
    W4 (F := Ideal) m ρ c (Proc.devRef .tc r) = m ((c : Thread nD τ).loc r) :=
  (W4_of_ne m ρ c r hr0).trans (W3_keep m ρ c r h0 h1 h2)
theorem W5_keep (r : Ref sig .tc) (h0 : r ∉ wr0) (h1 : r ∉ wr01) (h2 : r ∉ wr02)
    (hr0 : ∀ w, Pipeline.arrRef spec0 w ≠ r) (h3 : r ∉ wr1) :
    W5 (F := Ideal) m ρ c (Proc.devRef .tc r) = m ((c : Thread nD τ).loc r) :=
  (keep1 _ r h3).trans (W4_keep m ρ c r h0 h1 h2 hr0)
theorem W6_keep (r : Ref sig .tc) (h0 : r ∉ wr0) (h1 : r ∉ wr01) (h2 : r ∉ wr02)
    (hr0 : ∀ w, Pipeline.arrRef spec0 w ≠ r) (h3 : r ∉ wr1) (hr1 : ∀ w, Pipeline.arrRef spec1 w ≠ r) :
    W6 (F := Ideal) m ρ c (Proc.devRef .tc r) = m ((c : Thread nD τ).loc r) :=
  (W6_of_ne m ρ c r hr1).trans (W5_keep m ρ c r h0 h1 h2 hr0 h3)
theorem W7_keep (r : Ref sig .tc) (h0 : r ∉ wr0) (h1 : r ∉ wr01) (h2 : r ∉ wr02)
    (hr0 : ∀ w, Pipeline.arrRef spec0 w ≠ r) (h3 : r ∉ wr1) (hr1 : ∀ w, Pipeline.arrRef spec1 w ≠ r) (h4 : r ∉ wr2) :
    W7 (F := Ideal) m ρ c (Proc.devRef .tc r) = m ((c : Thread nD τ).loc r) :=
  (keep2 _ r h4).trans (W6_keep m ρ c r h0 h1 h2 hr0 h3 hr1)

/-! ### The first dense stage's entry -/

theorem W3_v5 : W3 (F := Ideal) m ρ c (Proc.devRef .tc main_v5) = Cert.Gcn.srcW (m ((c : Thread nD τ).loc main_arg1)) :=
  (keep02 _ main_v5 (by decide)).trans ((keep01 _ main_v5 (by decide)).trans (h0_v5 (W0 m ρ c) (m ((c : Thread nD τ).loc main_arg1)) rfl))
theorem W3_v6 : W3 (F := Ideal) m ρ c (Proc.devRef .tc main_v6) = Cert.Gcn.dstW (m ((c : Thread nD τ).loc main_arg1)) :=
  (keep02 _ main_v6 (by decide)).trans ((keep01 _ main_v6 (by decide)).trans (h0_v6 (W0 m ρ c) (m ((c : Thread nD τ).loc main_arg1)) rfl))
theorem W3_v15 : W3 (F := Ideal) m ρ c (Proc.devRef .tc main_v15) = Cert.Gcn.dcol (m ((c : Thread nD τ).loc main_arg1)) :=
  h02_v15 (W2 m ρ c) (m ((c : Thread nD τ).loc main_arg1)) (h01_v14 (W1 m ρ c) (m ((c : Thread nD τ).loc main_arg1)) (h0_v12 (W0 m ρ c) (m ((c : Thread nD τ).loc main_arg1)) rfl) (h0_v13 (W0 m ρ c) (m ((c : Thread nD τ).loc main_arg1)) rfl)
    (h0_cst2 (W0 m ρ c)))

/-! ### The first dense stage's exit -/

theorem W4_v5 : W4 (F := Ideal) m ρ c (Proc.devRef .tc main_v5) = Cert.Gcn.srcW (m ((c : Thread nD τ).loc main_arg1)) :=
  (W4_of_ne m ρ c main_v5 (by decide)).trans (W3_v5 m ρ c)
theorem W4_v6 : W4 (F := Ideal) m ρ c (Proc.devRef .tc main_v6) = Cert.Gcn.dstW (m ((c : Thread nD τ).loc main_arg1)) :=
  (W4_of_ne m ρ c main_v6 (by decide)).trans (W3_v6 m ρ c)
/-- The column of factors is one of the stage's input arrays: the stage leaves it as it found it. -/
theorem W4_v15 : W4 (F := Ideal) m ρ c (Proc.devRef .tc main_v15) = Cert.Gcn.dcol (m ((c : Thread nD τ).loc main_arg1)) :=
  ((W4_arr m ρ c 2).trans (((dat0 (V3 m ρ) c).arrAt_in 2 rfl _).trans (A_eq0 (V3 m ρ) c 2))).trans (W3_v15 m ρ c)
theorem W4_v16 : W4 (F := Ideal) m ρ c (Proc.devRef .tc main_v16) = Cert.Gcn.stage0 (m ((c : Thread nD τ).loc main_arg0)) (m ((c : Thread nD τ).loc main_arg2)) (Cert.Gcn.dcol (m ((c : Thread nD τ).loc main_arg1))) := by
  refine (W4_arr m ρ c 3).trans ((RegionValue.region0_value (V3 m ρ) c).trans ?_)
  have a0 : V3 (F := Ideal) m ρ c main_arg0 = (m ((c : Thread nD τ).loc main_arg0)) := W3_keep m ρ c main_arg0 (by decide) (by decide) (by decide)
  have a2 : V3 (F := Ideal) m ρ c main_arg2 = (m ((c : Thread nD τ).loc main_arg2)) := W3_keep m ρ c main_arg2 (by decide) (by decide) (by decide)
  have a15 : V3 (F := Ideal) m ρ c main_v15 = Cert.Gcn.dcol (m ((c : Thread nD τ).loc main_arg1)) := W3_v15 m ρ c
  rw [a0, a2, a15]

/-! ### The middle dense stage's entry -/

theorem W5_v5 : W5 (F := Ideal) m ρ c (Proc.devRef .tc main_v5) = Cert.Gcn.srcW (m ((c : Thread nD τ).loc main_arg1)) :=
  (keep1 _ main_v5 (by decide)).trans (W4_v5 m ρ c)
theorem W5_v6 : W5 (F := Ideal) m ρ c (Proc.devRef .tc main_v6) = Cert.Gcn.dstW (m ((c : Thread nD τ).loc main_arg1)) :=
  (keep1 _ main_v6 (by decide)).trans (W4_v6 m ρ c)
theorem W5_v15 : W5 (F := Ideal) m ρ c (Proc.devRef .tc main_v15) = Cert.Gcn.dcol (m ((c : Thread nD τ).loc main_arg1)) :=
  (keep1 _ main_v15 (by decide)).trans (W4_v15 m ρ c)
theorem W5_v26 : W5 (F := Ideal) m ρ c (Proc.devRef .tc main_v26) = Cert.Gcn.aggK Cert.Gcn.lw64 (m ((c : Thread nD τ).loc main_arg1)) (Cert.Gcn.stage0 (m ((c : Thread nD τ).loc main_arg0)) (m ((c : Thread nD τ).loc main_arg2)) (Cert.Gcn.dcol (m ((c : Thread nD τ).loc main_arg1)))) :=
  h1_v26 (W4 m ρ c) (m ((c : Thread nD τ).loc main_arg1)) _ (W4_v5 m ρ c) (W4_v6 m ρ c) (W4_v16 m ρ c)
theorem W5_v27 : W5 (F := Ideal) m ρ c (Proc.devRef .tc main_v27) = shapeCast ⟨2, ![1, 64]⟩ (m ((c : Thread nD τ).loc main_arg3)) Cert.Gcn.lw64.cr :=
  h1_v27 (W4 m ρ c) (m ((c : Thread nD τ).loc main_arg3)) (W4_keep m ρ c main_arg3 (by decide) (by decide) (by decide) (by decide))

/-! ### The middle dense stage's exit -/

theorem W6_v5 : W6 (F := Ideal) m ρ c (Proc.devRef .tc main_v5) = Cert.Gcn.srcW (m ((c : Thread nD τ).loc main_arg1)) :=
  (W6_of_ne m ρ c main_v5 (by decide)).trans (W5_v5 m ρ c)
theorem W6_v6 : W6 (F := Ideal) m ρ c (Proc.devRef .tc main_v6) = Cert.Gcn.dstW (m ((c : Thread nD τ).loc main_arg1)) :=
  (W6_of_ne m ρ c main_v6 (by decide)).trans (W5_v6 m ρ c)
theorem W6_v15 : W6 (F := Ideal) m ρ c (Proc.devRef .tc main_v15) = Cert.Gcn.dcol (m ((c : Thread nD τ).loc main_arg1)) :=
  ((W6_arr m ρ c 1).trans (((dat1 (V5 m ρ) c).arrAt_in 1 rfl _).trans (A_eq1 (V5 m ρ) c 1))).trans (W5_v15 m ρ c)
theorem W6_v28 : W6 (F := Ideal) m ρ c (Proc.devRef .tc main_v28) = Cert.Gcn.stage1 (Cert.Gcn.aggK Cert.Gcn.lw64 (m ((c : Thread nD τ).loc main_arg1)) (Cert.Gcn.stage0 (m ((c : Thread nD τ).loc main_arg0)) (m ((c : Thread nD τ).loc main_arg2)) (Cert.Gcn.dcol (m ((c : Thread nD τ).loc main_arg1))))) (Cert.Gcn.dcol (m ((c : Thread nD τ).loc main_arg1))) (shapeCast ⟨2, ![1, 64]⟩ (m ((c : Thread nD τ).loc main_arg3)) Cert.Gcn.lw64.cr) (m ((c : Thread nD τ).loc main_arg4)) := by
  refine (W6_arr m ρ c 4).trans ((RegionValue.region1_value (V5 m ρ) c).trans ?_)
  have a26 : V5 (F := Ideal) m ρ c main_v26 = (Cert.Gcn.aggK Cert.Gcn.lw64 (m ((c : Thread nD τ).loc main_arg1)) (Cert.Gcn.stage0 (m ((c : Thread nD τ).loc main_arg0)) (m ((c : Thread nD τ).loc main_arg2)) (Cert.Gcn.dcol (m ((c : Thread nD τ).loc main_arg1))))) := W5_v26 m ρ c
  have a15 : V5 (F := Ideal) m ρ c main_v15 = Cert.Gcn.dcol (m ((c : Thread nD τ).loc main_arg1)) := W5_v15 m ρ c
  have a27 : V5 (F := Ideal) m ρ c main_v27 = (shapeCast ⟨2, ![1, 64]⟩ (m ((c : Thread nD τ).loc main_arg3)) Cert.Gcn.lw64.cr) := W5_v27 m ρ c
  have a4 : V5 (F := Ideal) m ρ c main_arg4 = (m ((c : Thread nD τ).loc main_arg4)) := W5_keep m ρ c main_arg4 (by decide) (by decide) (by decide) (by decide) (by decide)
  rw [a26, a15, a27, a4]

/-! ### The last dense stage's entry -/

theorem W7_v15 : W7 (F := Ideal) m ρ c (Proc.devRef .tc main_v15) = Cert.Gcn.dcol (m ((c : Thread nD τ).loc main_arg1)) :=
  (keep2 _ main_v15 (by decide)).trans (W6_v15 m ρ c)
theorem W7_v38 : W7 (F := Ideal) m ρ c (Proc.devRef .tc main_v38) = Cert.Gcn.aggK Cert.Gcn.lw32 (m ((c : Thread nD τ).loc main_arg1)) (Cert.Gcn.stage1 (Cert.Gcn.aggK Cert.Gcn.lw64 (m ((c : Thread nD τ).loc main_arg1)) (Cert.Gcn.stage0 (m ((c : Thread nD τ).loc main_arg0)) (m ((c : Thread nD τ).loc main_arg2)) (Cert.Gcn.dcol (m ((c : Thread nD τ).loc main_arg1))))) (Cert.Gcn.dcol (m ((c : Thread nD τ).loc main_arg1))) (shapeCast ⟨2, ![1, 64]⟩ (m ((c : Thread nD τ).loc main_arg3)) Cert.Gcn.lw64.cr) (m ((c : Thread nD τ).loc main_arg4))) :=
  h2_v38 (W6 m ρ c) (m ((c : Thread nD τ).loc main_arg1)) _ (W6_v5 m ρ c) (W6_v6 m ρ c) (W6_v28 m ρ c)
theorem W7_v39 : W7 (F := Ideal) m ρ c (Proc.devRef .tc main_v39) = shapeCast ⟨2, ![1, 32]⟩ (m ((c : Thread nD τ).loc main_arg5)) Cert.Gcn.lw32.cr :=
  h2_v39 (W6 m ρ c) (m ((c : Thread nD τ).loc main_arg5)) (W6_keep m ρ c main_arg5 (by decide) (by decide) (by decide) (by decide) (by decide) (by decide))
theorem W7_v40 : W7 (F := Ideal) m ρ c (Proc.devRef .tc main_v40) = shapeCast ⟨2, ![1, 128]⟩ (m ((c : Thread nD τ).loc main_arg7)) Cert.Gcn.lw128.cr :=
  h2_v40 (W6 m ρ c) (m ((c : Thread nD τ).loc main_arg7)) (W6_keep m ρ c main_arg7 (by decide) (by decide) (by decide) (by decide) (by decide) (by decide))

end Run

/-! ## The result array at the return -/

theorem kernel_value (c : Dev nD) :
    W8 (F := Ideal) m ρ c (Proc.devRef .tc main_v41)
      = Cert.Gcn.KOUT (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W8_arr m ρ c 5).trans ((RegionValue.region2_value (V7 m ρ) c).trans ?_)
  have a38 : V7 (F := Ideal) m ρ c main_v38 = (Cert.Gcn.aggK Cert.Gcn.lw32 (m ((c : Thread nD τ).loc main_arg1)) (Cert.Gcn.stage1 (Cert.Gcn.aggK Cert.Gcn.lw64 (m ((c : Thread nD τ).loc main_arg1)) (Cert.Gcn.stage0 (m ((c : Thread nD τ).loc main_arg0)) (m ((c : Thread nD τ).loc main_arg2)) (Cert.Gcn.dcol (m ((c : Thread nD τ).loc main_arg1))))) (Cert.Gcn.dcol (m ((c : Thread nD τ).loc main_arg1))) (shapeCast ⟨2, ![1, 64]⟩ (m ((c : Thread nD τ).loc main_arg3)) Cert.Gcn.lw64.cr) (m ((c : Thread nD τ).loc main_arg4)))) := W7_v38 m ρ c
  have a15 : V7 (F := Ideal) m ρ c main_v15 = Cert.Gcn.dcol (m ((c : Thread nD τ).loc main_arg1)) := W7_v15 m ρ c
  have a39 : V7 (F := Ideal) m ρ c main_v39 = (shapeCast ⟨2, ![1, 32]⟩ (m ((c : Thread nD τ).loc main_arg5)) Cert.Gcn.lw32.cr) := W7_v39 m ρ c
  have a6 : V7 (F := Ideal) m ρ c main_arg6 = (m ((c : Thread nD τ).loc main_arg6)) := W7_keep m ρ c main_arg6 (by decide) (by decide) (by decide) (by decide) (by decide) (by decide) (by decide)
  have a40 : V7 (F := Ideal) m ρ c main_v40 = (shapeCast ⟨2, ![1, 128]⟩ (m ((c : Thread nD τ).loc main_arg7)) Cert.Gcn.lw128.cr) := W7_v40 m ρ c
  rw [a38, a15, a39, a6, a40]
  rfl

end Cert.KernelIdeal.KernelValue

end
-- ==== Proof.RefRun.lean ====
/-
  The host program that aggregates with per-edge factors: every weakly fair execution terminates with its result array
  at the second way's term of the argument arrays, and the argument arrays unchanged.

  The program is a straight line of 130 array operations, listed here in order. Its run leaves every array at the fold
  of the operations' results over the launch contents. The fold at the result array is read stretch by stretch: each
  layer's edge words, its factors, and its aggregation are three stretches, each one's results stated over an arbitrary
  valuation, and composed they are the second way's term.
-/
import proofs.«165941_j32152125177955_2_alg».proof.Proof.Gen.ReferenceIdeal
import proofs.«165941_j32152125177955_2_alg».proof.Proof.Spec
import Idealize.ShloMosaic.Lib.StableHlo.Run

set_option maxRecDepth 16384

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-! ## The pieces of the second way as functions of the edge words -/

open Cert.Gcn Cert.LibMatmul Cert.LibRowScatter Cert.LibTake in
/-- The degree, the normalization factor and the per-edge factor as functions of the source and destination words. -/
def degOf (d : IVec sEdge 32) : FVec Ideal sNode .f32 :=
  Host.scatterAdd (F := Ideal) vecScatterD (broadcastInDim sNode ![] w_b_node zeroS)
    (broadcastInDim sEdgeCol ![0] w_b_edgecol d) (broadcastInDim sEdge ![] w_b_edge oneS)

open Cert.Gcn Cert.LibMatmul Cert.LibRowScatter Cert.LibTake in
@[inherit_doc degOf]
def dinvOf (d : IVec sEdge 32) : FVec Ideal sNode .f32 :=
  select (cmpf (F := Ideal) .ogt (degOf d) (broadcastInDim sNode ![] w_b_node zeroS)) (Host.rsqrt (degOf d))
    (broadcastInDim sNode ![] w_b_node (id zeroS))

open Cert.Gcn Cert.LibMatmul Cert.LibRowScatter Cert.LibTake in
@[inherit_doc degOf]
def normOf (s d : IVec sEdge 32) : FVec Ideal sEdge .f32 :=
  mulf (Host.gather (vecTake NN EE w_g1) (dinvOf d) (broadcastInDim sEdgeCol ![0] w_b_edgecol (wrap s)))
    (Host.gather (vecTake NN EE w_g1) (dinvOf d) (broadcastInDim sEdgeCol ![0] w_b_edgecol (wrap d)))

theorem normOf_eq (ei : IVec Cert.Gcn.sPairs 32) : normOf (Cert.Gcn.srcW ei) (Cert.Gcn.dstW ei) = Cert.Gcn.norm ei := rfl

open Cert.Gcn Cert.LibMatmul Cert.LibRowScatter Cert.LibTake in
/-- One layer after its dense stage, as a function of the source and destination words and the per-edge factor:
    the gathered rows times the factors summed into the destination nodes, plus the bias, rectified. -/
def layerOf {C : Nat} (Wd : LayerW C) (s d : IVec sEdge 32) (nrm : FVec Ideal sEdge .f32)
    (h : FVec Ideal ⟨2, ![NN, C]⟩ .f32) (b : FVec Ideal ⟨1, ![C]⟩ .f32) : FVec Ideal ⟨2, ![NN, C]⟩ .f32 :=
  maximumf (addf (Host.scatterAdd (F := Ideal) (rowScatter NN C EE Wd.sc) (broadcastInDim ⟨2, ![NN, C]⟩ ![] Wd.bz zeroS)
      (broadcastInDim sEdgeCol ![0] w_b_edgecol d)
      (mulf (Host.gather (rowTake NN C EE Wd.ga) h (broadcastInDim sEdgeCol ![0] w_b_edgecol (wrap s)))
        (broadcastInDim ⟨2, ![EE, C]⟩ ![0, 1] Wd.be (broadcastInDim sEdgeCol ![0] w_b_edgecol nrm))))
    (biasAll Wd b)) (broadcastInDim ⟨2, ![NN, C]⟩ ![] Wd.bz zeroS)

theorem layerOf_eq {C : Nat} (Wd : Cert.Gcn.LayerW C) (ei : IVec Cert.Gcn.sPairs 32)
    (h : FVec Ideal ⟨2, ![Cert.Gcn.NN, C]⟩ .f32) (b : FVec Ideal ⟨1, ![C]⟩ .f32) :
    layerOf Wd (Cert.Gcn.srcW ei) (Cert.Gcn.dstW ei) (Cert.Gcn.norm ei) h b = Cert.Gcn.refLayer Wd ei h b := rfl

/-! ## The program as a list of operations, whole and in six stretches -/

/-- The program's 130 operations, in order (a called function's operations stand in its call's place). -/
abbrev ops : List (HloOp τ sig (Elt F)) :=
  [ binary main_arg0 main_arg2 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg1 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_v5 (iotaInDim S50000 32 0),
    binary main_v2 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v4 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v13 main_v14 main_call0_v1 main_v15 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)),
    nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 ((broadcastInDim S50000x64 ![] bcast_S_S50000x64) : (⟨S_, .f32⟩ : BufTy).Contents (Elt F) → (⟨S50000x64, .f32⟩ : BufTy).Contents (Elt F)),
    binary main_v46 main_call1_v0 main_v47 (maximumf : (⟨S50000x64, .f32⟩ : BufTy).Contents (Elt F) → (⟨S50000x64, .f32⟩ : BufTy).Contents (Elt F) → (⟨S50000x64, .f32⟩ : BufTy).Contents (Elt F)),
    binary main_v47 main_arg4 main_v48 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)),
    unary main_arg1 main_v49 ((extractStridedSlice S1x800000 ![0, 0] · slices_S2x800000_S1x800000_0_0) : (⟨S2x800000, .i32⟩ : BufTy).Contents (Elt F) → (⟨S1x800000, .i32⟩ : BufTy).Contents (Elt F)),
    reshape main_v49 main_v50 rfl shapeCasts_S1x800000_S800000,
    unary main_arg1 main_v51 ((extractStridedSlice S1x800000 ![1, 0] · slices_S2x800000_S1x800000_1_0) : (⟨S2x800000, .i32⟩ : BufTy).Contents (Elt F) → (⟨S1x800000, .i32⟩ : BufTy).Contents (Elt F)),
    reshape main_v51 main_v52 rfl shapeCasts_S1x800000_S800000,
    nullary main_v53 (iotaInDim S50000 32 0),
    binary main_v50 main_v53 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v52 main_v53 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst_9 (constant S_ .f32 0x3F800000#32),
    unary main_cst_9 main_v56 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 ((broadcastInDim S50000 ![] bcast_S_S50000) : (⟨S_, .f32⟩ : BufTy).Contents (Elt F) → (⟨S50000, .f32⟩ : BufTy).Contents (Elt F)),
    ternary main_v61 main_v62 main_call2_v1 main_v63 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v54 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v54 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v54 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v55 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v55 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v55 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)),
    nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v54 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v54 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v54 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v48 main_v84 main_v85 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x32 ![0, 1] bcast_S850000x1_S850000x32_0_1 : (⟨S850000x1, .f32⟩ : BufTy).Contents (Elt F) → (⟨S850000x32, .f32⟩ : BufTy).Contents (Elt F)),
    binary main_v85 main_v87 main_v88 (mulf : (⟨S850000x32, .f32⟩ : BufTy).Contents (Elt F) → (⟨S850000x32, .f32⟩ : BufTy).Contents (Elt F) → (⟨S850000x32, .f32⟩ : BufTy).Contents (Elt F)),
    nullary main_cst_19 (constant S_ .f32 0x00000000#32),
    unary main_cst_19 main_v89 (broadcastInDim S50000x32 ![] bcast_S_S50000x32 : (⟨S_, .f32⟩ : BufTy).Contents (Elt F) → (⟨S50000x32, .f32⟩ : BufTy).Contents (Elt F)),
    unary main_v55 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_arg5 main_v92 (broadcastInDim S1x32 ![1] bcast_S32_S1x32_1 : (⟨S32, .f32⟩ : BufTy).Contents (Elt F) → (⟨S1x32, .f32⟩ : BufTy).Contents (Elt F)),
    unary main_v92 main_v93 (broadcastInDim S50000x32 ![0, 1] bcast_S1x32_S50000x32_0_1 : (⟨S1x32, .f32⟩ : BufTy).Contents (Elt F) → (⟨S50000x32, .f32⟩ : BufTy).Contents (Elt F)),
    binary main_v91 main_v93 main_v94 (addf : (⟨S50000x32, .f32⟩ : BufTy).Contents (Elt F) → (⟨S50000x32, .f32⟩ : BufTy).Contents (Elt F) → (⟨S50000x32, .f32⟩ : BufTy).Contents (Elt F)),
    nullary main_call3_cst (constant S_ .f32 0x00000000#32),
    unary main_call3_cst main_call3_v0 ((broadcastInDim S50000x32 ![] bcast_S_S50000x32) : (⟨S_, .f32⟩ : BufTy).Contents (Elt F) → (⟨S50000x32, .f32⟩ : BufTy).Contents (Elt F)),
    binary main_v94 main_call3_v0 main_v95 (maximumf : (⟨S50000x32, .f32⟩ : BufTy).Contents (Elt F) → (⟨S50000x32, .f32⟩ : BufTy).Contents (Elt F) → (⟨S50000x32, .f32⟩ : BufTy).Contents (Elt F)),
    binary main_v95 main_arg6 main_v96 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg7 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v96 main_v98 main_v99 (addf : (⟨S50000x128, .f32⟩ : BufTy).Contents (Elt F) → (⟨S50000x128, .f32⟩ : BufTy).Contents (Elt F) → (⟨S50000x128, .f32⟩ : BufTy).Contents (Elt F)) ]

/-- First layer: the dense product and the edge words. -/
abbrev sa : List (HloOp τ sig (Elt F)) :=
  [ binary main_arg0 main_arg2 main_v0 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    unary main_arg1 main_v3 ((extractStridedSlice S1x800000 ![1, 0] · slices_S2x800000_S1x800000_1_0) : (⟨S2x800000, .i32⟩ : BufTy).Contents (Elt F) → (⟨S1x800000, .i32⟩ : BufTy).Contents (Elt F)),
    reshape main_v3 main_v4 rfl shapeCasts_S1x800000_S800000,
    nullary main_v5 (iotaInDim S50000 32 0),
    binary main_v2 main_v5 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v4 main_v5 main_v7 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- First layer: the degree, the normalization factors and the per-edge factors, from the edge words. -/
abbrev sb : List (HloOp τ sig (Elt F)) :=
  [ nullary main_cst (constant S_ .f32 0x3F800000#32),
    unary main_cst main_v8 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v9 (broadcastInDim S50000 ![] bcast_S_S50000 : (⟨S_, .f32⟩ : BufTy).Contents (Elt F) → (⟨S50000, .f32⟩ : BufTy).Contents (Elt F)),
    unary main_v7 main_v10 (broadcastInDim S850000x1 ![0] bcast_S850000_S850000x1_0 : (⟨S850000, .i32⟩ : BufTy).Contents (Elt F) → (⟨S850000x1, .i32⟩ : BufTy).Contents (Elt F)),
    ternary main_v9 main_v10 main_v8 main_v11 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v12 (broadcastInDim S50000 ![] bcast_S_S50000 : (⟨S_, .f32⟩ : BufTy).Contents (Elt F) → (⟨S50000, .f32⟩ : BufTy).Contents (Elt F)),
    binary main_v11 main_v12 main_v13 (cmpf .ogt : (⟨S50000, .f32⟩ : BufTy).Contents (Elt F) → (⟨S50000, .f32⟩ : BufTy).Contents (Elt F) → (⟨S50000, .i1⟩ : BufTy).Contents (Elt F)),
    unary main_v11 main_v14 (Host.rsqrt : (⟨S50000, .f32⟩ : BufTy).Contents (Elt F) → (⟨S50000, .f32⟩ : BufTy).Contents (Elt F)),
    nullary main_cst_2 (constant S_ .f32 0x00000000#32),
    unary main_cst_2 main_call0_v0 (id : (⟨S_, .f32⟩ : BufTy).Contents (Elt F) → (⟨S_, .f32⟩ : BufTy).Contents (Elt F)),
    unary main_call0_v0 main_call0_v1 ((broadcastInDim S50000 ![] bcast_S_S50000) : (⟨S_, .f32⟩ : BufTy).Contents (Elt F) → (⟨S50000, .f32⟩ : BufTy).Contents (Elt F)),
    ternary main_v13 main_v14 main_call0_v1 main_v15 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v6 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v6 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v6 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v15 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v7 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v7 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v7 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v15 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]
/-- First layer: the aggregation with the factors, the bias, the rectifier; the second dense product. -/
abbrev sc : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v6 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v6 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v6 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v0 main_v36 main_v37 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x64 ![0, 1] bcast_S850000x1_S850000x64_0_1 : (⟨S850000x1, .f32⟩ : BufTy).Contents (Elt F) → (⟨S850000x64, .f32⟩ : BufTy).Contents (Elt F)),
    binary main_v37 main_v39 main_v40 (mulf : (⟨S850000x64, .f32⟩ : BufTy).Contents (Elt F) → (⟨S850000x64, .f32⟩ : BufTy).Contents (Elt F) → (⟨S850000x64, .f32⟩ : BufTy).Contents (Elt F)),
    nullary main_cst_8 (constant S_ .f32 0x00000000#32),
    unary main_cst_8 main_v41 (broadcastInDim S50000x64 ![] bcast_S_S50000x64 : (⟨S_, .f32⟩ : BufTy).Contents (Elt F) → (⟨S50000x64, .f32⟩ : BufTy).Contents (Elt F)),
    unary main_v7 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S50000x64 ![0, 1] bcast_S1x64_S50000x64_0_1 : (⟨S1x64, .f32⟩ : BufTy).Contents (Elt F) → (⟨S50000x64, .f32⟩ : BufTy).Contents (Elt F)),
    binary main_v43 main_v45 main_v46 (addf : (⟨S50000x64, .f32⟩ : BufTy).Contents (Elt F) → (⟨S50000x64, .f32⟩ : BufTy).Contents (Elt F) → (⟨S50000x64, .f32⟩ : BufTy).Contents (Elt F)),
    nullary main_call1_cst (constant S_ .f32 0x00000000#32),
    unary main_call1_cst main_call1_v0 ((broadcastInDim S50000x64 ![] bcast_S_S50000x64) : (⟨S_, .f32⟩ : BufTy).Contents (Elt F) → (⟨S50000x64, .f32⟩ : BufTy).Contents (Elt F)),
    binary main_v46 main_call1_v0 main_v47 (maximumf : (⟨S50000x64, .f32⟩ : BufTy).Contents (Elt F) → (⟨S50000x64, .f32⟩ : BufTy).Contents (Elt F) → (⟨S50000x64, .f32⟩ : BufTy).Contents (Elt F)),
    binary main_v47 main_arg4 main_v48 ((fun l r => Host.dotGeneral dot_S50000x64_S64x32_S50000x32_1_0_0_1_n_n none l r) : (⟨S50000x64, .f32⟩ : BufTy).Contents (Elt F) → (⟨S64x32, .f32⟩ : BufTy).Contents (Elt F) → (⟨S50000x32, .f32⟩ : BufTy).Contents (Elt F)) ]
/-- Second layer: the edge words, computed again. -/
abbrev sd : List (HloOp τ sig (Elt F)) :=
  [ unary main_arg1 main_v49 ((extractStridedSlice S1x800000 ![0, 0] · slices_S2x800000_S1x800000_0_0) : (⟨S2x800000, .i32⟩ : BufTy).Contents (Elt F) → (⟨S1x800000, .i32⟩ : BufTy).Contents (Elt F)),
    reshape main_v49 main_v50 rfl shapeCasts_S1x800000_S800000,
    unary main_arg1 main_v51 ((extractStridedSlice S1x800000 ![1, 0] · slices_S2x800000_S1x800000_1_0) : (⟨S2x800000, .i32⟩ : BufTy).Contents (Elt F) → (⟨S1x800000, .i32⟩ : BufTy).Contents (Elt F)),
    reshape main_v51 main_v52 rfl shapeCasts_S1x800000_S800000,
    nullary main_v53 (iotaInDim S50000 32 0),
    binary main_v50 main_v53 main_v54 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    binary main_v52 main_v53 main_v55 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]
/-- Second layer: the degree and the factors, computed again. -/
abbrev se : List (HloOp τ sig (Elt F)) :=
  [ nullary main_cst_9 (constant S_ .f32 0x3F800000#32),
    unary main_cst_9 main_v56 (broadcastInDim S850000 ![] bcast_S_S850000 : (⟨S_, .f32⟩ : BufTy).Contents (Elt F) → (⟨S850000, .f32⟩ : BufTy).Contents (Elt F)),
    nullary main_cst_10 (constant S_ .f32 0x00000000#32),
    unary main_cst_10 main_v57 (broadcastInDim S50000 ![] bcast_S_S50000 : (⟨S_, .f32⟩ : BufTy).Contents (Elt F) → (⟨S50000, .f32⟩ : BufTy).Contents (Elt F)),
    unary main_v55 main_v58 (broadcastInDim S850000x1 ![0] bcast_S850000_S850000x1_0 : (⟨S850000, .i32⟩ : BufTy).Contents (Elt F) → (⟨S850000x1, .i32⟩ : BufTy).Contents (Elt F)),
    ternary main_v57 main_v58 main_v56 main_v59 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_11 (constant S_ .f32 0x00000000#32),
    unary main_cst_11 main_v60 (broadcastInDim S50000 ![] bcast_S_S50000 : (⟨S_, .f32⟩ : BufTy).Contents (Elt F) → (⟨S50000, .f32⟩ : BufTy).Contents (Elt F)),
    binary main_v59 main_v60 main_v61 (cmpf .ogt : (⟨S50000, .f32⟩ : BufTy).Contents (Elt F) → (⟨S50000, .f32⟩ : BufTy).Contents (Elt F) → (⟨S50000, .i1⟩ : BufTy).Contents (Elt F)),
    unary main_v59 main_v62 (Host.rsqrt : (⟨S50000, .f32⟩ : BufTy).Contents (Elt F) → (⟨S50000, .f32⟩ : BufTy).Contents (Elt F)),
    nullary main_cst_12 (constant S_ .f32 0x00000000#32),
    unary main_cst_12 main_call2_v0 (id : (⟨S_, .f32⟩ : BufTy).Contents (Elt F) → (⟨S_, .f32⟩ : BufTy).Contents (Elt F)),
    unary main_call2_v0 main_call2_v1 ((broadcastInDim S50000 ![] bcast_S_S50000) : (⟨S_, .f32⟩ : BufTy).Contents (Elt F) → (⟨S50000, .f32⟩ : BufTy).Contents (Elt F)),
    ternary main_v61 main_v62 main_call2_v1 main_v63 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v54 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v54 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v54 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v63 main_v69 main_v70 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_15 (constantI S_ 32 0#32),
    unary main_c_15 main_v71 (broadcastInDim S850000 ![] bcast_S_S850000 : (⟨S_, .i32⟩ : BufTy).Contents (Elt F) → (⟨S850000, .i32⟩ : BufTy).Contents (Elt F)),
    binary main_v55 main_v71 main_v72 (cmpi .slt : (⟨S850000, .i32⟩ : BufTy).Contents (Elt F) → (⟨S850000, .i32⟩ : BufTy).Contents (Elt F) → (⟨S850000, .i1⟩ : BufTy).Contents (Elt F)),
    nullary main_c_16 (constantI S_ 32 50000#32),
    unary main_c_16 main_v73 (broadcastInDim S850000 ![] bcast_S_S850000 : (⟨S_, .i32⟩ : BufTy).Contents (Elt F) → (⟨S850000, .i32⟩ : BufTy).Contents (Elt F)),
    binary main_v55 main_v73 main_v74 (addi : (⟨S850000, .i32⟩ : BufTy).Contents (Elt F) → (⟨S850000, .i32⟩ : BufTy).Contents (Elt F) → (⟨S850000, .i32⟩ : BufTy).Contents (Elt F)),
    ternary main_v72 main_v74 main_v55 main_v75 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v75 main_v76 (broadcastInDim S850000x1 ![0] bcast_S850000_S850000x1_0 : (⟨S850000, .i32⟩ : BufTy).Contents (Elt F) → (⟨S850000x1, .i32⟩ : BufTy).Contents (Elt F)),
    binary main_v63 main_v76 main_v77 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v70 main_v77 main_v78 (mulf : (⟨S850000, .f32⟩ : BufTy).Contents (Elt F) → (⟨S850000, .f32⟩ : BufTy).Contents (Elt F) → (⟨S850000, .f32⟩ : BufTy).Contents (Elt F)) ]
/-- Second layer: the aggregation, the bias, the rectifier; the last dense product and its bias. -/
abbrev sf : List (HloOp τ sig (Elt F)) :=
  [ nullary main_c_17 (constantI S_ 32 0#32),
    unary main_c_17 main_v79 (broadcastInDim S850000 ![] bcast_S_S850000 : (⟨S_, .i32⟩ : BufTy).Contents (Elt F) → (⟨S850000, .i32⟩ : BufTy).Contents (Elt F)),
    binary main_v54 main_v79 main_v80 (cmpi .slt : (⟨S850000, .i32⟩ : BufTy).Contents (Elt F) → (⟨S850000, .i32⟩ : BufTy).Contents (Elt F) → (⟨S850000, .i1⟩ : BufTy).Contents (Elt F)),
    nullary main_c_18 (constantI S_ 32 50000#32),
    unary main_c_18 main_v81 (broadcastInDim S850000 ![] bcast_S_S850000 : (⟨S_, .i32⟩ : BufTy).Contents (Elt F) → (⟨S850000, .i32⟩ : BufTy).Contents (Elt F)),
    binary main_v54 main_v81 main_v82 (addi : (⟨S850000, .i32⟩ : BufTy).Contents (Elt F) → (⟨S850000, .i32⟩ : BufTy).Contents (Elt F) → (⟨S850000, .i32⟩ : BufTy).Contents (Elt F)),
    ternary main_v80 main_v82 main_v54 main_v83 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v83 main_v84 (broadcastInDim S850000x1 ![0] bcast_S850000_S850000x1_0 : (⟨S850000, .i32⟩ : BufTy).Contents (Elt F) → (⟨S850000x1, .i32⟩ : BufTy).Contents (Elt F)),
    binary main_v48 main_v84 main_v85 ((fun x i => Host.gather gather_S50000x32_S850000x1_S850000x32_1_0_n_n_0_1_132 x i) : (⟨S50000x32, .f32⟩ : BufTy).Contents (Elt F) → (⟨S850000x1, .i32⟩ : BufTy).Contents (Elt F) → (⟨S850000x32, .f32⟩ : BufTy).Contents (Elt F)),
    unary main_v78 main_v86 (broadcastInDim S850000x1 ![0] bcast_S850000_S850000x1_0 : (⟨S850000, .f32⟩ : BufTy).Contents (Elt F) → (⟨S850000x1, .f32⟩ : BufTy).Contents (Elt F)),
    unary main_v86 main_v87 (broadcastInDim S850000x32 ![0, 1] bcast_S850000x1_S850000x32_0_1 : (⟨S850000x1, .f32⟩ : BufTy).Contents (Elt F) → (⟨S850000x32, .f32⟩ : BufTy).Contents (Elt F)),
    binary main_v85 main_v87 main_v88 (mulf : (⟨S850000x32, .f32⟩ : BufTy).Contents (Elt F) → (⟨S850000x32, .f32⟩ : BufTy).Contents (Elt F) → (⟨S850000x32, .f32⟩ : BufTy).Contents (Elt F)),
    nullary main_cst_19 (constant S_ .f32 0x00000000#32),
    unary main_cst_19 main_v89 (broadcastInDim S50000x32 ![] bcast_S_S50000x32 : (⟨S_, .f32⟩ : BufTy).Contents (Elt F) → (⟨S50000x32, .f32⟩ : BufTy).Contents (Elt F)),
    unary main_v55 main_v90 (broadcastInDim S850000x1 ![0] bcast_S850000_S850000x1_0 : (⟨S850000, .i32⟩ : BufTy).Contents (Elt F) → (⟨S850000x1, .i32⟩ : BufTy).Contents (Elt F)),
    ternary main_v89 main_v90 main_v88 main_v91 ((fun x i u => Host.scatterAdd scatter_S50000x32_S850000x1_S850000x32_1_0_0_1 x i u) : (⟨S50000x32, .f32⟩ : BufTy).Contents (Elt F) → (⟨S850000x1, .i32⟩ : BufTy).Contents (Elt F) → (⟨S850000x32, .f32⟩ : BufTy).Contents (Elt F) → (⟨S50000x32, .f32⟩ : BufTy).Contents (Elt F)),
    unary main_arg5 main_v92 (broadcastInDim S1x32 ![1] bcast_S32_S1x32_1 : (⟨S32, .f32⟩ : BufTy).Contents (Elt F) → (⟨S1x32, .f32⟩ : BufTy).Contents (Elt F)),
    unary main_v92 main_v93 (broadcastInDim S50000x32 ![0, 1] bcast_S1x32_S50000x32_0_1 : (⟨S1x32, .f32⟩ : BufTy).Contents (Elt F) → (⟨S50000x32, .f32⟩ : BufTy).Contents (Elt F)),
    binary main_v91 main_v93 main_v94 (addf : (⟨S50000x32, .f32⟩ : BufTy).Contents (Elt F) → (⟨S50000x32, .f32⟩ : BufTy).Contents (Elt F) → (⟨S50000x32, .f32⟩ : BufTy).Contents (Elt F)),
    nullary main_call3_cst (constant S_ .f32 0x00000000#32),
    unary main_call3_cst main_call3_v0 ((broadcastInDim S50000x32 ![] bcast_S_S50000x32) : (⟨S_, .f32⟩ : BufTy).Contents (Elt F) → (⟨S50000x32, .f32⟩ : BufTy).Contents (Elt F)),
    binary main_v94 main_call3_v0 main_v95 (maximumf : (⟨S50000x32, .f32⟩ : BufTy).Contents (Elt F) → (⟨S50000x32, .f32⟩ : BufTy).Contents (Elt F) → (⟨S50000x32, .f32⟩ : BufTy).Contents (Elt F)),
    binary main_v95 main_arg6 main_v96 ((fun l r => Host.dotGeneral dot_S50000x32_S32x128_S50000x128_1_0_0_1_n_n none l r) : (⟨S50000x32, .f32⟩ : BufTy).Contents (Elt F) → (⟨S32x128, .f32⟩ : BufTy).Contents (Elt F) → (⟨S50000x128, .f32⟩ : BufTy).Contents (Elt F)),
    unary main_arg7 main_v97 (broadcastInDim S1x128 ![1] bcast_S128_S1x128_1 : (⟨S128, .f32⟩ : BufTy).Contents (Elt F) → (⟨S1x128, .f32⟩ : BufTy).Contents (Elt F)),
    unary main_v97 main_v98 (broadcastInDim S50000x128 ![0, 1] bcast_S1x128_S50000x128_0_1 : (⟨S1x128, .f32⟩ : BufTy).Contents (Elt F) → (⟨S50000x128, .f32⟩ : BufTy).Contents (Elt F)),
    binary main_v96 main_v98 main_v99 (addf : (⟨S50000x128, .f32⟩ : BufTy).Contents (Elt F) → (⟨S50000x128, .f32⟩ : BufTy).Contents (Elt F) → (⟨S50000x128, .f32⟩ : BufTy).Contents (Elt F)) ]

/-! ## Each stretch's results over an arbitrary valuation, and what it leaves alone -/

theorem sa_v0 (W : Valuation τ sig (Elt Ideal)) :
    StableHlo.after (sa (F := Ideal)) W (Proc.devRef .tc main_v0)
      = Host.dotGeneral (F := Ideal) (φ₁ := .f32) (φ₂ := .f32) (Cert.Gcn.dotP Cert.Gcn.NN 128 64 Cert.Gcn.wd1) none (W (Proc.devRef .tc main_arg0)) (W (Proc.devRef .tc main_arg2)) := by
  after_results_simp <;> rfl
theorem sa_v6 (W : Valuation τ sig (Elt Ideal)) :
    StableHlo.after (sa (F := Ideal)) W (Proc.devRef .tc main_v6)
      = Cert.Gcn.srcW (W (Proc.devRef .tc main_arg1)) := by
  after_results_simp <;> rfl
theorem sa_v7 (W : Valuation τ sig (Elt Ideal)) :
    StableHlo.after (sa (F := Ideal)) W (Proc.devRef .tc main_v7)
      = Cert.Gcn.dstW (W (Proc.devRef .tc main_arg1)) := by
  after_results_simp <;> rfl
theorem sa_arg1 (W : Valuation τ sig (Elt Ideal)) :
    StableHlo.after (sa (F := Ideal)) W (Proc.devRef .tc main_arg1) = W (Proc.devRef .tc main_arg1) := by
  after_results_simp <;> rfl
theorem sa_arg3 (W : Valuation τ sig (Elt Ideal)) :
    StableHlo.after (sa (F := Ideal)) W (Proc.devRef .tc main_arg3) = W (Proc.devRef .tc main_arg3) := by
  after_results_simp <;> rfl
theorem sa_arg4 (W : Valuation τ sig (Elt Ideal)) :
    StableHlo.after (sa (F := Ideal)) W (Proc.devRef .tc main_arg4) = W (Proc.devRef .tc main_arg4) := by
  after_results_simp <;> rfl
theorem sa_arg5 (W : Valuation τ sig (Elt Ideal)) :
    StableHlo.after (sa (F := Ideal)) W (Proc.devRef .tc main_arg5) = W (Proc.devRef .tc main_arg5) := by
  after_results_simp <;> rfl
theorem sa_arg6 (W : Valuation τ sig (Elt Ideal)) :
    StableHlo.after (sa (F := Ideal)) W (Proc.devRef .tc main_arg6) = W (Proc.devRef .tc main_arg6) := by
  after_results_simp <;> rfl
theorem sa_arg7 (W : Valuation τ sig (Elt Ideal)) :
    StableHlo.after (sa (F := Ideal)) W (Proc.devRef .tc main_arg7) = W (Proc.devRef .tc main_arg7) := by
  after_results_simp <;> rfl
theorem sb_v30 (W : Valuation τ sig (Elt Ideal)) :
    StableHlo.after (sb (F := Ideal)) W (Proc.devRef .tc main_v30)
      = normOf (W (Proc.devRef .tc main_v6)) (W (Proc.devRef .tc main_v7)) := by
  after_results_simp <;> rfl
theorem sb_v0 (W : Valuation τ sig (Elt Ideal)) :
    StableHlo.after (sb (F := Ideal)) W (Proc.devRef .tc main_v0) = W (Proc.devRef .tc main_v0) := by
  after_results_simp <;> rfl
theorem sb_v6 (W : Valuation τ sig (Elt Ideal)) :
    StableHlo.after (sb (F := Ideal)) W (Proc.devRef .tc main_v6) = W (Proc.devRef .tc main_v6) := by
  after_results_simp <;> rfl
theorem sb_v7 (W : Valuation τ sig (Elt Ideal)) :
    StableHlo.after (sb (F := Ideal)) W (Proc.devRef .tc main_v7) = W (Proc.devRef .tc main_v7) := by
  after_results_simp <;> rfl
theorem sb_arg1 (W : Valuation τ sig (Elt Ideal)) :
    StableHlo.after (sb (F := Ideal)) W (Proc.devRef .tc main_arg1) = W (Proc.devRef .tc main_arg1) := by
  after_results_simp <;> rfl
theorem sb_arg3 (W : Valuation τ sig (Elt Ideal)) :
    StableHlo.after (sb (F := Ideal)) W (Proc.devRef .tc main_arg3) = W (Proc.devRef .tc main_arg3) := by
  after_results_simp <;> rfl
theorem sb_arg4 (W : Valuation τ sig (Elt Ideal)) :
    StableHlo.after (sb (F := Ideal)) W (Proc.devRef .tc main_arg4) = W (Proc.devRef .tc main_arg4) := by
  after_results_simp <;> rfl
theorem sb_arg5 (W : Valuation τ sig (Elt Ideal)) :
    StableHlo.after (sb (F := Ideal)) W (Proc.devRef .tc main_arg5) = W (Proc.devRef .tc main_arg5) := by
  after_results_simp <;> rfl
theorem sb_arg6 (W : Valuation τ sig (Elt Ideal)) :
    StableHlo.after (sb (F := Ideal)) W (Proc.devRef .tc main_arg6) = W (Proc.devRef .tc main_arg6) := by
  after_results_simp <;> rfl
theorem sb_arg7 (W : Valuation τ sig (Elt Ideal)) :
    StableHlo.after (sb (F := Ideal)) W (Proc.devRef .tc main_arg7) = W (Proc.devRef .tc main_arg7) := by
  after_results_simp <;> rfl
theorem sc_v48 (W : Valuation τ sig (Elt Ideal)) :
    StableHlo.after (sc (F := Ideal)) W (Proc.devRef .tc main_v48)
      = Host.dotGeneral (F := Ideal) (φ₁ := .f32) (φ₂ := .f32) (Cert.Gcn.dotP Cert.Gcn.NN 64 32 Cert.Gcn.wd2) none
          (layerOf Cert.Gcn.lw64 (W (Proc.devRef .tc main_v6)) (W (Proc.devRef .tc main_v7)) (W (Proc.devRef .tc main_v30)) (W (Proc.devRef .tc main_v0)) (W (Proc.devRef .tc main_arg3))) (W (Proc.devRef .tc main_arg4)) := by
  after_results_simp <;> rfl
theorem sc_arg1 (W : Valuation τ sig (Elt Ideal)) :
    StableHlo.after (sc (F := Ideal)) W (Proc.devRef .tc main_arg1) = W (Proc.devRef .tc main_arg1) := by
  after_results_simp <;> rfl
theorem sc_arg5 (W : Valuation τ sig (Elt Ideal)) :
    StableHlo.after (sc (F := Ideal)) W (Proc.devRef .tc main_arg5) = W (Proc.devRef .tc main_arg5) := by
  after_results_simp <;> rfl
theorem sc_arg6 (W : Valuation τ sig (Elt Ideal)) :
    StableHlo.after (sc (F := Ideal)) W (Proc.devRef .tc main_arg6) = W (Proc.devRef .tc main_arg6) := by
  after_results_simp <;> rfl
theorem sc_arg7 (W : Valuation τ sig (Elt Ideal)) :
    StableHlo.after (sc (F := Ideal)) W (Proc.devRef .tc main_arg7) = W (Proc.devRef .tc main_arg7) := by
  after_results_simp <;> rfl
theorem sd_v54 (W : Valuation τ sig (Elt Ideal)) :
    StableHlo.after (sd (F := Ideal)) W (Proc.devRef .tc main_v54)
      = Cert.Gcn.srcW (W (Proc.devRef .tc main_arg1)) := by
  after_results_simp <;> rfl
theorem sd_v55 (W : Valuation τ sig (Elt Ideal)) :
    StableHlo.after (sd (F := Ideal)) W (Proc.devRef .tc main_v55)
      = Cert.Gcn.dstW (W (Proc.devRef .tc main_arg1)) := by
  after_results_simp <;> rfl
theorem sd_v48 (W : Valuation τ sig (Elt Ideal)) :
    StableHlo.after (sd (F := Ideal)) W (Proc.devRef .tc main_v48) = W (Proc.devRef .tc main_v48) := by
  after_results_simp <;> rfl
theorem sd_arg5 (W : Valuation τ sig (Elt Ideal)) :
    StableHlo.after (sd (F := Ideal)) W (Proc.devRef .tc main_arg5) = W (Proc.devRef .tc main_arg5) := by
  after_results_simp <;> rfl
theorem sd_arg6 (W : Valuation τ sig (Elt Ideal)) :
    StableHlo.after (sd (F := Ideal)) W (Proc.devRef .tc main_arg6) = W (Proc.devRef .tc main_arg6) := by
  after_results_simp <;> rfl
theorem sd_arg7 (W : Valuation τ sig (Elt Ideal)) :
    StableHlo.after (sd (F := Ideal)) W (Proc.devRef .tc main_arg7) = W (Proc.devRef .tc main_arg7) := by
  after_results_simp <;> rfl
theorem se_v78 (W : Valuation τ sig (Elt Ideal)) :
    StableHlo.after (se (F := Ideal)) W (Proc.devRef .tc main_v78)
      = normOf (W (Proc.devRef .tc main_v54)) (W (Proc.devRef .tc main_v55)) := by
  after_results_simp <;> rfl
theorem se_v48 (W : Valuation τ sig (Elt Ideal)) :
    StableHlo.after (se (F := Ideal)) W (Proc.devRef .tc main_v48) = W (Proc.devRef .tc main_v48) := by
  after_results_simp <;> rfl
theorem se_v54 (W : Valuation τ sig (Elt Ideal)) :
    StableHlo.after (se (F := Ideal)) W (Proc.devRef .tc main_v54) = W (Proc.devRef .tc main_v54) := by
  after_results_simp <;> rfl
theorem se_v55 (W : Valuation τ sig (Elt Ideal)) :
    StableHlo.after (se (F := Ideal)) W (Proc.devRef .tc main_v55) = W (Proc.devRef .tc main_v55) := by
  after_results_simp <;> rfl
theorem se_arg5 (W : Valuation τ sig (Elt Ideal)) :
    StableHlo.after (se (F := Ideal)) W (Proc.devRef .tc main_arg5) = W (Proc.devRef .tc main_arg5) := by
  after_results_simp <;> rfl
theorem se_arg6 (W : Valuation τ sig (Elt Ideal)) :
    StableHlo.after (se (F := Ideal)) W (Proc.devRef .tc main_arg6) = W (Proc.devRef .tc main_arg6) := by
  after_results_simp <;> rfl
theorem se_arg7 (W : Valuation τ sig (Elt Ideal)) :
    StableHlo.after (se (F := Ideal)) W (Proc.devRef .tc main_arg7) = W (Proc.devRef .tc main_arg7) := by
  after_results_simp <;> rfl
theorem sf_v99 (W : Valuation τ sig (Elt Ideal)) :
    StableHlo.after (sf (F := Ideal)) W (Proc.devRef .tc main_v99)
      = addf (Host.dotGeneral (F := Ideal) (φ₁ := .f32) (φ₂ := .f32) (Cert.Gcn.dotP Cert.Gcn.NN 32 128 Cert.Gcn.wd3) none
          (layerOf Cert.Gcn.lw32 (W (Proc.devRef .tc main_v54)) (W (Proc.devRef .tc main_v55)) (W (Proc.devRef .tc main_v78)) (W (Proc.devRef .tc main_v48)) (W (Proc.devRef .tc main_arg5))) (W (Proc.devRef .tc main_arg6)))
        (Cert.Gcn.biasAll Cert.Gcn.lw128 (W (Proc.devRef .tc main_arg7))) := by
  after_results_simp <;> rfl

/-- The fold over two stretches run one after the other is the second's over the first's. -/
theorem after_app {Val : EltTy → Type} : ∀ (l₁ l₂ : List (HloOp τ sig Val)) (V : Valuation τ sig Val),
    StableHlo.after (l₁ ++ l₂) V = StableHlo.after l₂ (StableHlo.after l₁ V)
  | [], _, _ => rfl
  | op :: l₁, l₂, V => by rw [List.cons_append, StableHlo.after_cons, StableHlo.after_cons, after_app l₁ l₂]

/-! ## The whole program -/

theorem ops_split : (ops : List (HloOp τ sig (Elt F))) = sa ++ (sb ++ (sc ++ (sd ++ (se ++ sf)))) := rfl

/-- The result array after the whole program, over an arbitrary valuation: the second way's term of the arguments. -/
theorem after_ops_v99 (W : Valuation τ sig (Elt Ideal)) :
    StableHlo.after (ops (F := Ideal)) W (Proc.devRef .tc main_v99)
      = Cert.Gcn.ROUT (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) := by
  rw [ops_split, after_app, after_app, after_app, after_app, after_app]
  rw [sf_v99, se_v78, se_v54, se_v55, se_v48, se_arg5, se_arg6, se_arg7]
  rw [sd_v54, sd_v55, sd_v48, sd_arg5, sd_arg6, sd_arg7]
  rw [sc_v48, sc_arg1, sc_arg5, sc_arg6, sc_arg7]
  rw [sb_v30, sb_v0, sb_v6, sb_v7, sb_arg1, sb_arg3, sb_arg4, sb_arg5, sb_arg6, sb_arg7]
  rw [sa_v0, sa_v6, sa_v7, sa_arg1, sa_arg3, sa_arg4, sa_arg5, sa_arg6, sa_arg7]
  rw [normOf_eq, layerOf_eq, layerOf_eq]
  rfl

/-! ## The run -/

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., binary_bufs_sub .., unary_bufs_sub .., unary_bufs_sub .., binary_bufs_sub ..⟩

set_option maxHeartbeats 52000000 in
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v99) = Cert.Gcn.ROUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v99).trans (after_ops_v99 _),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.ReferenceIdeal.RefRun

end
-- ==== Proof.Law.lean ====
/-
  The two ways of writing the two-layer graph convolution agree on the extended reals.
-/
import proofs.«165941_j32152125177955_2_alg».proof.Proof.Spec

noncomputable section

open scoped BigOperators

namespace Cert.Gcn

open Idealize.ShloMosaic Idealize.ShloMosaic.ValueIdx Cert.LibMatmul Cert.LibRowScatter Cert.LibTake

/-! ## The normalization factor is nonnegative and not the top -/

/-- The guarded inverse square root of any extended real is nonnegative and not the top. -/
theorem guard_rsqrt (d : EReal) :
    0 ≤ Scalar.select (Ideal.cmp .ogt d 0) (Ideal.rsqrt d) (0 : EReal)
      ∧ Scalar.select (Ideal.cmp .ogt d 0) (Ideal.rsqrt d) (0 : EReal) ≠ ⊤ := by
  induction d using EReal.rec with
  | bot =>
    have h : Ideal.cmp .ogt (⊥ : EReal) 0 = 0#1 := by
      unfold Ideal.cmp; simp
    rw [h, select_zero]; exact ⟨le_refl _, EReal.zero_ne_top⟩
  | coe r =>
    by_cases hr : 0 < r
    · have h : Ideal.cmp .ogt (r : EReal) 0 = 1#1 := by
        unfold Ideal.cmp
        have : (0 : EReal) < (r : EReal) := by exact_mod_cast hr
        simp [this]
      rw [h, select_one, Ideal.rsqrt_coe, if_neg (not_lt.mpr hr.le), if_neg (ne_of_gt hr)]
      refine ⟨?_, EReal.coe_ne_top _⟩
      exact_mod_cast inv_nonneg.mpr (Real.sqrt_nonneg r)
    · have h : Ideal.cmp .ogt (r : EReal) 0 = 0#1 := by
        unfold Ideal.cmp
        have : ¬ (0 : EReal) < (r : EReal) := by exact_mod_cast hr
        simp [this]
      rw [h, select_zero]; exact ⟨le_refl _, EReal.zero_ne_top⟩
  | top =>
    have h : Ideal.cmp .ogt (⊤ : EReal) 0 = 1#1 := by
      unfold Ideal.cmp; simp
    rw [h, select_one, Ideal.rsqrt_top]; exact ⟨le_refl _, EReal.zero_ne_top⟩

theorem hostRsqrt_apply {s : Shape} (v : FVec Ideal s .f32) (i : s.Idx) : Host.rsqrt v i = Ideal.rsqrt (v i) := rfl

theorem cmpf_ideal (p : CmpFPredicate) (a b : Ideal .f32) : FloatOps.cmpf p a b = Ideal.cmp p a b := rfl

theorem dinv_apply (ei : IVec sPairs 32) (j : Fin NN) :
    dinv ei (ix1 j) = Scalar.select (Ideal.cmp .ogt (deg ei (ix1 j)) 0) (Ideal.rsqrt (deg ei (ix1 j))) (0 : EReal) := by
  unfold dinv
  rw [select_apply]
  have hz : ∀ i, broadcastInDim sNode ![] w_b_node zeroS i = (0 : EReal) := by
    intro i; unfold broadcastInDim zeroS; rw [constant_apply]; exact Ideal.ofBits_zero_f32
  rw [cmpf_apply, hz, hostRsqrt_apply, cmpf_ideal, id_eq, hz]

theorem dinv_nonneg_ne_top (ei : IVec sPairs 32) (j : Fin NN) : 0 ≤ dinv ei (ix1 j) ∧ dinv ei (ix1 j) ≠ ⊤ := by
  rw [dinv_apply]; exact guard_rsqrt _

/-! ## On a landing edge the wrapped destination word reads the node landed on -/

/-- A word that names node j is not negative, so the wrap leaves it, and the clamp leaves it too. -/
theorem wrap_word_of_lands (D : BitVec 32) (j : Fin NN) (h : lands NN D = some j) :
    min (Scalar.select (IntOp.cmpi .slt D 0#32) (IntOp.addi D 50000#32) D).toInt.toNat (NN - 1) = j.val := by
  unfold lands at h
  split at h
  · rename_i hb
    have hj : D.toInt.toNat = j.val := congrArg Fin.val (Option.some.inj h)
    have hc : IntOp.cmpi .slt D 0#32 = 0#1 := by
      unfold IntOp.cmpi
      have : D.slt 0#32 = false := by
        rw [BitVec.slt_eq_decide]; simp; exact hb.1
      simp [this]
    rw [hc, select_zero, hj]
    have := j.isLt
    omega
  · exact absurd h (by simp)

theorem wrap_apply (w : IVec sEdge 32) (k : Fin EE) :
    wrap w (ix1 k) = Scalar.select (IntOp.cmpi .slt (w (ix1 k)) 0#32) (IntOp.addi (w (ix1 k)) 50000#32) (w (ix1 k)) := rfl

theorem dwr_of_lands (ei : IVec sPairs 32) (k : Fin EE) (j : Fin NN)
    (h : lands NN (didx ei (ix2 k (⟨0, Nat.one_pos⟩ : Fin 1))) = some j) :
    min (dwr ei (ix2 k (⟨0, Nat.one_pos⟩ : Fin 1))).toInt.toNat (NN - 1) = j.val := by
  unfold didx at h
  rw [bcastCol_apply] at h
  unfold dwr
  rw [bcastCol_apply, wrap_apply]
  exact wrap_word_of_lands _ _ h

/-- A nonnegative factor other than the top distributes over a finite sum of extended reals. -/
theorem sum_mul_of_nonneg {ι : Type} (s : Finset ι) (f : ι → EReal) (c : EReal) (h0 : 0 ≤ c) (ht : c ≠ ⊤) :
    (∑ k ∈ s, f k) * c = ∑ k ∈ s, f k * c := by
  classical
  refine Finset.induction_on s ?_ ?_
  · simp
  · intro a s ha ih
    rw [Finset.sum_insert ha, Finset.sum_insert ha, EReal.right_distrib_of_nonneg_of_ne_top h0 ht, ih]

/-! ## The two aggregations read at an entry -/

theorem act_apply {A K : Nat} (a : (⟨2, ![A, K]⟩ : Shape).Idx → EReal) (d : (⟨2, ![A, 1]⟩ : Shape).Idx → EReal)
    (b : (⟨2, ![1, K]⟩ : Shape).Idx → EReal) (p : Fin A) (q : Fin K) :
    act a d b (ix2 p q) = max (a (ix2 p q) * d (ix2 p (⟨0, Nat.one_pos⟩ : Fin 1)) + b (ix2 (⟨0, Nat.one_pos⟩ : Fin 1) q)) 0 := rfl

theorem scaled_apply {A B : Nat} (h : (⟨2, ![A, B]⟩ : Shape).Idx → EReal) (d : (⟨2, ![A, 1]⟩ : Shape).Idx → EReal)
    (p : Fin A) (q : Fin B) : scaled h d (ix2 p q) = h (ix2 p q) * d (ix2 p (⟨0, Nat.one_pos⟩ : Fin 1)) := rfl

theorem nn_pos : 0 < NN := by decide

/-- The node whose row edge k gathers: its source word, wrapped, clamped into the node range. -/
def srcRow (ei : IVec sPairs 32) (k : Fin EE) : Fin NN :=
  ⟨min (sidx ei (ix2 k (⟨0, Nat.one_pos⟩ : Fin 1))).toInt.toNat (NN - 1),
    Nat.lt_of_le_of_lt (Nat.min_le_right _ _) (Nat.sub_lt nn_pos Nat.one_pos)⟩

/-- The node edge k's wrapped destination word reads, clamped into the node range. -/
def dstRow (ei : IVec sPairs 32) (k : Fin EE) : Fin NN :=
  ⟨min (dwr ei (ix2 k (⟨0, Nat.one_pos⟩ : Fin 1))).toInt.toNat (NN - 1),
    Nat.lt_of_le_of_lt (Nat.min_le_right _ _) (Nat.sub_lt nn_pos Nat.one_pos)⟩

section Layer
variable {C : Nat} (W : LayerW C) (ei : IVec sPairs 32)

theorem zeroBz_apply (i : (⟨2, ![NN, C]⟩ : Shape).Idx) :
    broadcastInDim ⟨2, ![NN, C]⟩ ![] W.bz zeroS i = (0 : EReal) := by
  unfold broadcastInDim zeroS; rw [constant_apply]; exact Ideal.ofBits_zero_f32

theorem aggK_unf (g : FVec Ideal ⟨2, ![NN, C]⟩ .f32) :
    aggK W ei g = Ideal.hostScatterAdd (rowScatter NN C EE W.sc) (broadcastInDim ⟨2, ![NN, C]⟩ ![] W.bz zeroS) (didx ei)
      (Host.gather (rowTake NN C EE W.ga) g (sidx ei)) := rfl

theorem aggK_apply (g : FVec Ideal ⟨2, ![NN, C]⟩ .f32) (j : Fin NN) (q : Fin C) :
    aggK W ei g (ix2 j q)
      = 0 + ∑ k ∈ Finset.univ.filter (fun k : Fin EE => lands NN (didx ei (ix2 k (⟨0, Nat.one_pos⟩ : Fin 1))) = some j),
          g (ix2 (srcRow ei k) q) := by
  rw [aggK_unf, rowScatter_apply, zeroBz_apply W]
  refine congrArg (fun t => (0 : EReal) + t) (Finset.sum_congr rfl fun k _ => ?_)
  rw [rowTake_apply nn_pos]
  rfl

theorem aggR_unf (h : FVec Ideal ⟨2, ![NN, C]⟩ .f32) :
    aggR W ei h = Ideal.hostScatterAdd (rowScatter NN C EE W.sc) (broadcastInDim ⟨2, ![NN, C]⟩ ![] W.bz zeroS) (didx ei)
      (mulf (Host.gather (rowTake NN C EE W.ga) h (sidx ei)) (broadcastInDim ⟨2, ![EE, C]⟩ ![0, 1] W.be (normCol ei))) := rfl

theorem normCol_unf : normCol ei = broadcastInDim sEdgeCol ![0] w_b_edgecol (norm ei) := rfl

theorem norm_unf : norm ei
    = mulf (Host.gather (vecTake NN EE w_g1) (dinv ei) (sidx ei)) (Host.gather (vecTake NN EE w_g1) (dinv ei) (dwr ei)) := rfl

theorem aggR_apply (h : FVec Ideal ⟨2, ![NN, C]⟩ .f32) (j : Fin NN) (q : Fin C) :
    aggR W ei h (ix2 j q)
      = 0 + ∑ k ∈ Finset.univ.filter (fun k : Fin EE => lands NN (didx ei (ix2 k (⟨0, Nat.one_pos⟩ : Fin 1))) = some j),
          h (ix2 (srcRow ei k) q) * (dinv ei (ix1 (srcRow ei k)) * dinv ei (ix1 (dstRow ei k))) := by
  rw [aggR_unf, rowScatter_apply, zeroBz_apply W]
  refine congrArg (fun t => (0 : EReal) + t) (Finset.sum_congr rfl fun k _ => ?_)
  rw [mulf_apply, rowTake_apply nn_pos, bcastAcross_apply, normCol_unf, bcastCol_apply, norm_unf, mulf_apply,
    vecTake_apply nn_pos, vecTake_apply nn_pos]
  rfl

theorem biasAll_apply (b : FVec Ideal ⟨1, ![C]⟩ .f32) (j : Fin NN) (q : Fin C) : biasAll W b (ix2 j q) = b (ix1 q) := by
  have e : biasAll W b = broadcastInDim ⟨2, ![NN, C]⟩ ![0, 1] W.bd (broadcastInDim ⟨2, ![1, C]⟩ ![1] W.br b) := rfl
  rw [e, bcastDown_apply, bcastRow_apply]

theorem dcol_apply (j : Fin NN) (u : Fin 1) : dcol ei (ix2 j u) = dinv ei (ix1 j) := by
  have e : dcol ei = shapeCast sNodeCol (dinv ei) w_cast_nodecol := rfl
  rw [e, castCol_apply]

/-- One layer: scaling the rows before the gather and the sums after the scatter is the same as carrying the
    product of the two factors on each edge, since on an edge that lands on node j the destination factor is node j's,
    and a nonnegative factor other than the top distributes over the sum. -/
theorem layer_eq (h : FVec Ideal ⟨2, ![NN, C]⟩ .f32) (b : FVec Ideal ⟨1, ![C]⟩ .f32) :
    act (aggK W ei (scaled h (dcol ei))) (dcol ei) (shapeCast ⟨2, ![1, C]⟩ b W.cr) = refLayer W ei h b := by
  funext i
  obtain ⟨j, q, rfl⟩ : ∃ (j : Fin NN) (q : Fin C), i = ix2 j q := ⟨i 0, i 1, eq_ix2 i⟩
  have e : refLayer W ei h b
      = maximumf (addf (aggR W ei h) (biasAll W b)) (broadcastInDim ⟨2, ![NN, C]⟩ ![] W.bz zeroS) := rfl
  rw [e, maximumf_apply, addf_apply, zeroBz_apply W, aggR_apply, biasAll_apply, act_apply, aggK_apply, castRow_apply,
    dcol_apply, zero_add, zero_add, sum_mul_of_nonneg _ _ _ (dinv_nonneg_ne_top ei j).1 (dinv_nonneg_ne_top ei j).2]
  refine congrArg (fun t => max (t + b (ix1 q)) 0) (Finset.sum_congr rfl fun k hk => ?_)
  have hd : dstRow ei k = j := Fin.ext (dwr_of_lands ei k j (Finset.mem_filter.mp hk).2)
  rw [hd, scaled_apply, dcol_apply, mul_assoc]

end Layer

/-! ## The whole -/

theorem stage0_unf {A K B : Nat} (x : (⟨2, ![A, K]⟩ : Shape).Idx → EReal) (w : (⟨2, ![K, B]⟩ : Shape).Idx → EReal)
    (d : (⟨2, ![A, 1]⟩ : Shape).Idx → EReal) : stage0 x w d = scaled (MM x w) d := rfl

theorem stage1_unf {A K B : Nat} (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal) :
    stage1 a d b w = scaled (MM (act a d b) w) d := rfl

theorem stage2_apply {A K B : Nat} (a : (⟨2, ![A, K]⟩ : Shape).Idx → EReal) (d : (⟨2, ![A, 1]⟩ : Shape).Idx → EReal)
    (b : (⟨2, ![1, K]⟩ : Shape).Idx → EReal) (w : (⟨2, ![K, B]⟩ : Shape).Idx → EReal)
    (bl : (⟨2, ![1, B]⟩ : Shape).Idx → EReal) (p : Fin A) (q : Fin B) :
    stage2 a d b w bl (ix2 p q) = MM (act a d b) w (ix2 p q) + bl (ix2 (⟨0, Nat.one_pos⟩ : Fin 1) q) := rfl

/-- The host's plain matrix product is the matrix product. -/
theorem dotP_eq {A K B : Nat} (wf : DotDims.WF ⟨2, ![A, K]⟩ ⟨2, ![K, B]⟩ ⟨2, ![A, B]⟩ [1] [0] [0] [1] [] [])
    (x : FVec Ideal ⟨2, ![A, K]⟩ .f32) (w : FVec Ideal ⟨2, ![K, B]⟩ .f32) :
    Host.dotGeneral (F := Ideal) (dotP A K B wf) none x w = MM x w :=
  dotGeneral_eq (dotP A K B wf) rfl rfl rfl rfl rfl rfl none _ x w

theorem KOUT_eq_ROUT (x : FVec Ideal ⟨2, ![NN, 128]⟩ .f32) (ei : IVec sPairs 32)
    (W1 : FVec Ideal ⟨2, ![128, 64]⟩ .f32) (b1 : FVec Ideal ⟨1, ![64]⟩ .f32)
    (W2 : FVec Ideal ⟨2, ![64, 32]⟩ .f32) (b2 : FVec Ideal ⟨1, ![32]⟩ .f32)
    (Wl : FVec Ideal ⟨2, ![32, 128]⟩ .f32) (bl : FVec Ideal ⟨1, ![128]⟩ .f32) :
    KOUT x ei W1 b1 W2 b2 Wl bl = ROUT x ei W1 b1 W2 b2 Wl bl := by
  funext i
  obtain ⟨p, q, rfl⟩ : ∃ (p : Fin NN) (q : Fin 128), i = ix2 p q := ⟨i 0, i 1, eq_ix2 i⟩
  have hk : KOUT x ei W1 b1 W2 b2 Wl bl
      = stage2 (aggK lw32 ei (stage1 (aggK lw64 ei (stage0 x W1 (dcol ei))) (dcol ei) (shapeCast ⟨2, ![1, 64]⟩ b1 lw64.cr) W2))
          (dcol ei) (shapeCast ⟨2, ![1, 32]⟩ b2 lw32.cr) Wl (shapeCast ⟨2, ![1, 128]⟩ bl lw128.cr) := rfl
  have hr : ROUT x ei W1 b1 W2 b2 Wl bl
      = addf (Host.dotGeneral (F := Ideal) (dotP NN 32 128 wd3) none
          (refLayer lw32 ei (Host.dotGeneral (F := Ideal) (dotP NN 64 32 wd2) none
            (refLayer lw64 ei (Host.dotGeneral (F := Ideal) (dotP NN 128 64 wd1) none x W1) b1) W2) b2) Wl)
        (biasAll lw128 bl) := rfl
  rw [hk, hr, stage2_apply, stage1_unf, stage0_unf, layer_eq lw64 ei (MM x W1) b1, layer_eq lw32 ei _ b2, addf_apply,
    biasAll_apply, castRow_apply, dotP_eq, dotP_eq, dotP_eq]

end Cert.Gcn

end
-- ==== Proof.lean ====
/-
  A two-layer graph convolution with symmetric normalization and self-loops, computed two ways, gives the same array
  over the extended reals.

  The kernel's program scales the rows of x W by each node's factor dinv inside its first dense stage, lets the host gather
  the scaled rows at the edges' source words and sum them into the destination nodes, and scales each node's sum by its
  dinv again inside the next dense stage, where the bias and the rectifier of the layer are applied before that stage's
  matrix product; the last stage adds the output bias. The reference multiplies every gathered row of x W by
  dinv(source) * dinv(destination) before the sum. On an edge that lands on node j the destination's factor is dinv j, so
  the two differ by moving the factor dinv j out of a finite sum; dinv j is 1/sqrt of a positive degree or 0, hence
  nonnegative and not +infinity, and such a factor distributes over a sum of extended reals whatever the summands are.
  So no entry of the inputs has to be finite, and the precondition is never opened.

  The pieces: the kernel's run ends with its result array at the first way's term of the arguments (the three dense
  stages as whole-array functions, composed through the host steps between them); the reference's run ends at the
  second way's term; the two terms are equal. The ideal pass rewrote nothing, so the preserved-meaning claim is trivial.
-/
import proofs.«165941_j32152125177955_2_alg».proof.Defs
import proofs.«165941_j32152125177955_2_alg».proof.Proof.Gen.Kernel.Frame
import proofs.«165941_j32152125177955_2_alg».proof.Proof.Gen.KernelIdeal.Frame
import proofs.«165941_j32152125177955_2_alg».proof.Proof.Gen.ReferenceIdeal
import proofs.«165941_j32152125177955_2_alg».proof.Proof.Gen.Pre_finite_inputs
import proofs.«165941_j32152125177955_2_alg».proof.Proof.KernelRun
import proofs.«165941_j32152125177955_2_alg».proof.Proof.KernelValue
import proofs.«165941_j32152125177955_2_alg».proof.Proof.RefRun
import proofs.«165941_j32152125177955_2_alg».proof.Proof.Law

noncomputable section

namespace Cert.Proof

open Idealize.ShloMosaic Idealize.ShloMosaic.TcCoe Idealize.SL.Sem

/-- The kernel as printed runs, and its arguments end unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, its result forgotten. -/
theorem frame_referenceIdeal : Cert.frame_ReferenceIdeal := fun m ρ _ =>
  (θ_run Cert.ReferenceIdeal.defs _ _).mono (fun _ h c => (h c).2) (Cert.ReferenceIdeal.RefRun.run m ρ)

/-- The ideal pass rewrote no operation. -/
theorem preserves : Cert.preserves_Kernel_KernelIdeal := trivial

/-- Both idealized programs, from memories agreeing on the arguments, end with the first way's term of the kernel's
    arguments in their result arrays: the kernel by its run and its value, the reference by its run, the agreement of the
    arguments, and the equality of the two ways. -/
theorem algebraic : Cert.algebraic_KernelIdeal_ReferenceIdeal := by
  intro m ρ m' ρ' _ hagree
  refine ⟨fun c => Cert.Gcn.KOUT
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.KernelValue.kernel_value m ρ c), (h c).2⟩)
      (Cert.KernelIdeal.KernelRun.run m ρ)
  · refine (θ_run Cert.ReferenceIdeal.defs _ _).mono (fun r h c => ⟨(h c).1.trans ?_, (h c).2⟩)
      (Cert.ReferenceIdeal.RefRun.run m' ρ')
    obtain ⟨e0, e1, e2, e3, e4, e5, e6, e7⟩ := hagree c
    rw [e0, e1, e2, e3, e4, e5, e6, e7]
    exact (Cert.Gcn.KOUT_eq_ROUT _ _ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
